-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S64 .f32) (main_arg12 : FVec F S64 .f32) (main_arg13 : FVec F S64x128 .f32) (main_arg14 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg13
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg14 main_v63 main_v67

def fn_part2 {F : FTy → Type} [FloatOps F] (main_arg7 : FVec F S64 .f32) (main_arg8 : FVec F S64x64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S64 .f32) (main_arg5 : FVec F S64 .f32) (main_arg6 : FVec F S64x64 .f32) (main_arg7 : FVec F S64 .f32) (main_arg8 : FVec F S64x64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64x64 .f32) (main_arg9 : FVec F S64x64 .f32) (main_arg10 : FVec F S64 .f32) (main_arg11 : FVec F S64 .f32) (main_arg12 : FVec F S64 .f32) (main_arg13 : FVec F S64x128 .f32) (main_arg14 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x64 : Shape := ⟨2, ![1, 64]⟩
abbrev S1x128 : Shape := ⟨2, ![1, 128]⟩
abbrev S400x10000 : Shape := ⟨2, ![400, 10000]⟩
abbrev S400x128 : Shape := ⟨2, ![400, 128]⟩
abbrev S10000x64 : Shape := ⟨2, ![10000, 64]⟩
abbrev S10000 : Shape := ⟨1, ![10000]⟩
abbrev S10000x1 : Shape := ⟨2, ![10000, 1]⟩
abbrev S400x64 : Shape := ⟨2, ![400, 64]⟩
abbrev S400x1 : Shape := ⟨2, ![400, 1]⟩
abbrev S400 : Shape := ⟨1, ![400]⟩

abbrev nBuf : Space → Nat
  | .hbm => 24
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x128, .f32⟩
  | .hbm, ⟨23, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x128, .f32⟩
  | .local _ .vmem, ⟨15, _⟩ => ⟨S1x128, .f32⟩
  | .local _ .vmem, ⟨16, _⟩ => ⟨S400x128, .f32⟩
  | .local _ .vmem, ⟨17, _⟩ => ⟨S400x128, .f32⟩
  | .local _ .vmem, ⟨18, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S400x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S64_S1x64 : S64.ShapeCasts S1x64
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  iota_S10000x64_d1_w32 : S10000x64.Iotas .tc 32 [1]
  natLt_1_32 : 1 < 32
  concatenates_S10000x64_S10000x64_S10000x128_d1 : Shape.Concatenates [S10000x64, S10000x64] S10000x128 1
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  slices_S400x128_o0_0_S400x64 : S400x128.Slices ![0, 0] S400x64
  slices_S400x128_o0_64_S400x1 : S400x128.Slices ![0, 64] S400x1
  broadcasts_S400x1_S400x64 : S400x1.Broadcasts S400x64
  broadcasts_S1x64_S400x64 : S1x64.Broadcasts S400x64
  reduces_S400x64_S400 : S400x64.Reduces [1] S400
  shapeCasts_S400_S400x1 : S400.ShapeCasts S400x1
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  dot_S400x10000_S10000x128_S400x128_1_0_0_1_n_n_wf : DotDims.WF S400x10000 S10000x128 S400x128 [1] [0] [0] [1] [] []
  dot_S400x64_S64x64_S400x64_1_0_0_1_n_n_wf : DotDims.WF S400x64 S64x64 S400x64 [1] [0] [0] [1] [] []
  dot_S400x64_S64x128_S400x128_1_0_0_1_n_n_wf : DotDims.WF S400x64 S64x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x128.size a ≤ S64x128.size a
  hwx0_13 : ∀ i : grid0.Coords, EltTy.bits .f32 = 32 ∨ (Rect.block (s := S64x128) S64x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S400x128.size a ≤ S10000x128.size a
  hwx0_15 : ∀ i : grid0.Coords, EltTy.bits .f32 = 32 ∨ (Rect.block (s := S10000x128) S400x128.size (cc0_transform_15 i) (hinb0_15 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S400x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S10000x64 : Shape := ⟨2, ![10000, 64]⟩
abbrev S1x64 : Shape := ⟨2, ![1, 64]⟩
abbrev S_ : Shape := ⟨0, ![]⟩
abbrev S10000 : Shape := ⟨1, ![10000]⟩
abbrev S10000x1 : Shape := ⟨2, ![10000, 1]⟩
abbrev S1x128 : Shape := ⟨2, ![1, 128]⟩

abbrev nBuf : Space → Nat
  | .hbm => 138
  | .vmem => 0
  | .smem => 0
  | _ => 0

abbrev hbmTy0_0 (i : Nat) : BufTy := match i % 128 with
  | 0 => ⟨S10000x128, .f32⟩
  | 1 => ⟨S10000x10000, .f32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64, .f32⟩
  | 12 => ⟨S64, .f32⟩
  | 13 => ⟨S64x128, .f32⟩
  | 14 => ⟨S128, .f32⟩
  | 15 => ⟨S10000x64, .f32⟩
  | 16 => ⟨S1x64, .f32⟩
  | 17 => ⟨S10000x64, .f32⟩
  | 18 => ⟨S10000x64, .f32⟩
  | 19 => ⟨S_, .f32⟩
  | 20 => ⟨S10000x64, .f32⟩
  | 21 => ⟨S10000x64, .f32⟩
  | 22 => ⟨S_, .f32⟩
  | 23 => ⟨S10000, .f32⟩
  | 24 => ⟨S10000x1, .f32⟩
  | 25 => ⟨S_, .f32⟩
  | 26 => ⟨S10000x1, .f32⟩
  | 27 => ⟨S10000x1, .f32⟩
  | 28 => ⟨S_, .i32⟩
  | 29 => ⟨S_, .f32⟩
  | 30 => ⟨S10000, .f32⟩
  | 31 => ⟨S10000x1, .f32⟩
  | 32 => ⟨S_, .f32⟩
  | 33 => ⟨S10000x1, .f32⟩
  | 34 => ⟨S10000x1, .f32⟩
  | 35 => ⟨S10000x64, .f32⟩
  | 36 => ⟨S10000x64, .f32⟩
  | 37 => ⟨S10000x64, .f32⟩
  | 38 => ⟨S_, .f32⟩
  | 39 => ⟨S_, .f32⟩
  | 40 => ⟨S_, .f32⟩
  | 41 => ⟨S_, .f32⟩
  | 42 => ⟨S10000, .f32⟩
  | 43 => ⟨S10000x1, .f32⟩
  | 44 => ⟨S10000x1, .f32⟩
  | 45 => ⟨S10000x1, .f32⟩
  | 46 => ⟨S_, .f32⟩
  | 47 => ⟨S_, .i1⟩
  | 48 => ⟨S_, .f32⟩
  | 49 => ⟨S_, .f32⟩
  | 50 => ⟨S10000x1, .f32⟩
  | 51 => ⟨S10000x1, .f32⟩
  | 52 => ⟨S10000x64, .f32⟩
  | 53 => ⟨S10000x64, .f32⟩
  | 54 => ⟨S_, .f32⟩
  | 55 => ⟨S10000x1, .f32⟩
  | 56 => ⟨S10000x1, .f32⟩
  | 57 => ⟨S10000x1, .f32⟩
  | 58 => ⟨S10000x64, .f32⟩
  | 59 => ⟨S10000x64, .f32⟩
  | 60 => ⟨S1x64, .f32⟩
  | 61 => ⟨S10000x64, .f32⟩
  | 62 => ⟨S10000x64, .f32⟩
  | 63 => ⟨S1x64, .f32⟩
  | 64 => ⟨S10000x64, .f32⟩
  | 65 => ⟨S10000x64, .f32⟩
  | 66 => ⟨S10000x64, .f32⟩
  | 67 => ⟨S1x64, .f32⟩
  | 68 => ⟨S10000x64, .f32⟩
  | 69 => ⟨S10000x64, .f32⟩
  | 70 => ⟨S_, .f32⟩
  | 71 => ⟨S10000x64, .f32⟩
  | 72 => ⟨S10000x64, .f32⟩
  | 73 => ⟨S10000x64, .f32⟩
  | 74 => ⟨S10000x64, .f32⟩
  | 75 => ⟨S_, .f32⟩
  | 76 => ⟨S10000, .f32⟩
  | 77 => ⟨S10000x1, .f32⟩
  | 78 => ⟨S10000x64, .f32⟩
  | 79 => ⟨S10000x64, .f32⟩
  | 80 => ⟨S10000x64, .f32⟩
  | 81 => ⟨S1x64, .f32⟩
  | 82 => ⟨S10000x64, .f32⟩
  | 83 => ⟨S10000x64, .f32⟩
  | 84 => ⟨S_, .f32⟩
  | 85 => ⟨S10000x64, .f32⟩
  | 86 => ⟨S10000x64, .f32⟩
  | 87 => ⟨S_, .f32⟩
  | 88 => ⟨S10000, .f32⟩
  | 89 => ⟨S10000x1, .f32⟩
  | 90 => ⟨S_, .f32⟩
  | 91 => ⟨S10000x1, .f32⟩
  | 92 => ⟨S10000x1, .f32⟩
  | 93 => ⟨S_, .i32⟩
  | 94 => ⟨S_, .f32⟩
  | 95 => ⟨S10000, .f32⟩
  | 96 => ⟨S10000x1, .f32⟩
  | 97 => ⟨S_, .f32⟩
  | 98 => ⟨S10000x1, .f32⟩
  | 99 => ⟨S10000x1, .f32⟩
  | 100 => ⟨S10000x64, .f32⟩
  | 101 => ⟨S10000x64, .f32⟩
  | 102 => ⟨S10000x64, .f32⟩
  | 103 => ⟨S_, .f32⟩
  | 104 => ⟨S_, .f32⟩
  | 105 => ⟨S_, .f32⟩
  | 106 => ⟨S_, .f32⟩
  | 107 => ⟨S10000, .f32⟩
  | 108 => ⟨S10000x1, .f32⟩
  | 109 => ⟨S10000x1, .f32⟩
  | 110 => ⟨S10000x1, .f32⟩
  | 111 => ⟨S_, .f32⟩
  | 112 => ⟨S_, .i1⟩
  | 113 => ⟨S_, .f32⟩
  | 114 => ⟨S_, .f32⟩
  | 115 => ⟨S10000x1, .f32⟩
  | 116 => ⟨S10000x1, .f32⟩
  | 117 => ⟨S10000x64, .f32⟩
  | 118 => ⟨S10000x64, .f32⟩
  | 119 => ⟨S_, .f32⟩
  | 120 => ⟨S10000x1, .f32⟩
  | 121 => ⟨S10000x1, .f32⟩
  | 122 => ⟨S10000x1, .f32⟩
  | 123 => ⟨S10000x64, .f32⟩
  | 124 => ⟨S10000x64, .f32⟩
  | 125 => ⟨S1x64, .f32⟩
  | 126 => ⟨S10000x64, .f32⟩
  | 127 => ⟨S10000x64, .f32⟩
  | _ => ⟨S10000x128, .f32⟩

abbrev hbmTy0_1 (i : Nat) : BufTy := match i % 128 with
  | 0 => ⟨S1x64, .f32⟩
  | 1 => ⟨S10000x64, .f32⟩
  | 2 => ⟨S10000x64, .f32⟩
  | 3 => ⟨S10000x128, .f32⟩
  | 4 => ⟨S1x128, .f32⟩
  | 5 => ⟨S10000x128, .f32⟩
  | 6 => ⟨S10000x128, .f32⟩
  | 7 => ⟨S_, .f32⟩
  | 8 => ⟨S10000x128, .f32⟩
  | 9 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_cst_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_cst_2 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_cst_3 : Ref sig .tc := ⟨.hbm, 46, rfl⟩
abbrev main_call1_v13 : Ref sig .tc := ⟨.hbm, 47, rfl⟩
abbrev main_call1_cst_4 : Ref sig .tc := ⟨.hbm, 48, rfl⟩
abbrev main_call1_call0_v0 : Ref sig .tc := ⟨.hbm, 49, rfl⟩
abbrev main_call1_call0_v1 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_1 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_call2_cst : Ref sig .tc := ⟨.hbm, 70, rfl⟩
abbrev main_call2_v0 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_2 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_call3_cst : Ref sig .tc := ⟨.hbm, 84, rfl⟩
abbrev main_call3_v0 : Ref sig .tc := ⟨.hbm, 85, rfl⟩
abbrev main_v38 : Ref sig .tc := ⟨.hbm, 86, rfl⟩
abbrev main_cst_3 : Ref sig .tc := ⟨.hbm, 87, rfl⟩
abbrev main_v39 : Ref sig .tc := ⟨.hbm, 88, rfl⟩
abbrev main_v40 : Ref sig .tc := ⟨.hbm, 89, rfl⟩
abbrev main_cst_4 : Ref sig .tc := ⟨.hbm, 90, rfl⟩
abbrev main_v41 : Ref sig .tc := ⟨.hbm, 91, rfl⟩
abbrev main_v42 : Ref sig .tc := ⟨.hbm, 92, rfl⟩
abbrev main_c_5 : Ref sig .tc := ⟨.hbm, 93, rfl⟩
abbrev main_call4_cst : Ref sig .tc := ⟨.hbm, 94, rfl⟩
abbrev main_call4_v0 : Ref sig .tc := ⟨.hbm, 95, rfl⟩
abbrev main_call4_v1 : Ref sig .tc := ⟨.hbm, 96, rfl⟩
abbrev main_call4_cst_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_cst_1 : Ref sig .tc := ⟨.hbm, 104, rfl⟩
abbrev main_call4_v8 : Ref sig .tc := ⟨.hbm, 105, rfl⟩
abbrev main_call4_cst_2 : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_v12 : Ref sig .tc := ⟨.hbm, 110, rfl⟩
abbrev main_call4_cst_3 : Ref sig .tc := ⟨.hbm, 111, rfl⟩
abbrev main_call4_v13 : Ref sig .tc := ⟨.hbm, 112, rfl⟩
abbrev main_call4_cst_4 : Ref sig .tc := ⟨.hbm, 113, rfl⟩
abbrev main_call4_call0_v0 : Ref sig .tc := ⟨.hbm, 114, rfl⟩
abbrev main_call4_call0_v1 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_6 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_call5_cst : Ref sig .tc := ⟨.hbm, 135, rfl⟩
abbrev main_call5_v0 : Ref sig .tc := ⟨.hbm, 136, rfl⟩
abbrev main_v61 : Ref sig .tc := ⟨.hbm, 137, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x64_0_1 : S10000x1.BroadcastsInDim S10000x64 (![0, 1] : Fin 2 → Fin S10000x64.rank)
  reducesTo_S10000x10000_S10000_d1 : S10000x10000.ReducesTo [1] S10000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  dot_S10000x10000_S10000x64_S10000x64_1_0_0_1_n_n_wf : DotDims.WF S10000x10000 S10000x64 S10000x64 [1] [0] [0] [1] [] []
  dot_S10000x64_S64x128_S10000x128_1_0_0_1_n_n_wf : DotDims.WF S10000x64 S64x128 S10000x128 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

class Facts : Prop extends Facts₀ where

variable [Facts]
-- ==== Proof.RowSpec.lean ====
/-
  The row-wise reading of the network, on the extended reals.

  A row of features goes through an affine map and a clamp at zero (`affRelu`); a row of 64 features is
  normalised to zero mean and unit variance, then scaled and shifted (`normK`, `normR`); the encoded rows are
  averaged with the incidence weights of a node (`aggRow`).  The encoder (`encRow`) and the decoder (`decRow`)
  are compositions of these, and `outRow` is the whole network at one node.

  The two programs spell the normalisation differently: one multiplies the centred row by the reciprocal
  square root of `variance + ε`, the other divides it by the square root.  The variance is a sum of squares
  divided by a positive number, hence nonnegative, so `variance + ε` lies in `(0, +∞]`; on that range the two
  spellings agree at every extended real (at `+∞` both give the centred value times `0`).  That is
  `normK_eq_normR`; no finiteness of the row is needed.
-/
import Idealize.ShloMosaic.PureOps.Ideal
import Idealize.ShloMosaic.PureOps.Ideal.Laws
import Idealize.ShloMosaic.Lib.ValueIdx

noncomputable section

open Idealize.ShloMosaic

namespace Cert.RowSpec

/-- The row length `64` as the programs write it. -/
abbrev c64 : EReal := Ideal.ofBits .f32 0x42800000#32
/-- The regulariser `ε` as the programs write it. -/
abbrev eps : EReal := Ideal.ofBits .f32 0x3727C5AC#32

/-- A row times a matrix. -/
def rowMat {a b : Nat} (r : Fin a → EReal) (W : Fin a → Fin b → EReal) : Fin b → EReal :=
  fun j => ∑ k : Fin a, r k * W k j

/-- An affine map of a row, clamped at zero. -/
def affRelu {a b : Nat} (r : Fin a → EReal) (W : Fin a → Fin b → EReal) (bias : Fin b → EReal) : Fin b → EReal :=
  fun j => max (rowMat r W j + bias j) 0

/-- The mean of a row of 64. -/
def mean (r : Fin 64 → EReal) : EReal := Ideal.div (∑ j : Fin 64, r j) c64

/-- The row minus its mean. -/
def centred (r : Fin 64 → EReal) : Fin 64 → EReal := fun j => r j - mean r

/-- The mean square of the centred row. -/
def var (r : Fin 64 → EReal) : EReal := Ideal.div (∑ j : Fin 64, centred r j * centred r j) c64

/-- Normalisation by the reciprocal square root, then gain and offset. -/
def normK (r g b : Fin 64 → EReal) : Fin 64 → EReal :=
  fun j => centred r j * Ideal.rsqrt (var r + eps) * g j + b j

/-- Normalisation by division by the square root, then gain and offset. -/
def normR (r g b : Fin 64 → EReal) : Fin 64 → EReal :=
  fun j => Ideal.div (centred r j) (Ideal.sqrt (var r + eps)) * g j + b j

/-- The encoder on one row of 128 input features, over a normalisation `nrm`. -/
def encRow (nrm : (Fin 64 → EReal) → (Fin 64 → EReal) → (Fin 64 → EReal) → Fin 64 → EReal)
    (x : Fin 128 → EReal) (w0 : Fin 128 → Fin 64 → EReal) (b0 g b : Fin 64 → EReal)
    (w1 : Fin 64 → Fin 64 → EReal) (b1 : Fin 64 → EReal) (cw : Fin 64 → Fin 64 → EReal) : Fin 64 → EReal :=
  rowMat (affRelu (nrm (affRelu x w0 b0) g b) w1 b1) cw

/-- The incidence-weighted average of the encoded rows at one node. -/
def aggRow {n : Nat} (inc : Fin n → EReal) (msg : Fin n → Fin 64 → EReal) : Fin 64 → EReal :=
  fun j => Ideal.div (∑ k : Fin n, inc k * msg k j) (∑ k : Fin n, inc k)

/-- The decoder on one aggregated row. -/
def decRow (nrm : (Fin 64 → EReal) → (Fin 64 → EReal) → (Fin 64 → EReal) → Fin 64 → EReal)
    (a : Fin 64 → EReal) (w0 : Fin 64 → Fin 64 → EReal) (b0 g b : Fin 64 → EReal)
    (w1 : Fin 64 → Fin 128 → EReal) (b1 : Fin 128 → EReal) : Fin 128 → EReal :=
  affRelu (nrm (affRelu a w0 b0) g b) w1 b1

/-! ## The network on whole arrays -/

/-- A matrix argument, as the programs hold it: a function of a two-coordinate index. -/
abbrev Arr2 (a b : Nat) : Type := FVec Ideal (⟨2, ![a, b]⟩ : Shape) .f32
/-- A vector argument. -/
abbrev Arr1 (a : Nat) : Type := FVec Ideal (⟨1, ![a]⟩ : Shape) .f32

/-- A matrix argument read by row and column. -/
def mat {a b : Nat} (A : Arr2 a b) : Fin a → Fin b → EReal := fun i j => A (ValueIdx.ix2 i j)
/-- A vector argument read by position. -/
def vec {a : Nat} (v : Arr1 a) : Fin a → EReal := fun j => v (ValueIdx.ix1 j)

/-- The whole network: entry `(i, q)` of the result is feature `q` of the decoder applied to the
    incidence-weighted average, at node `i`, of the encoder's rows. -/
def netOut (nrm : (Fin 64 → EReal) → (Fin 64 → EReal) → (Fin 64 → EReal) → Fin 64 → EReal)
    (x : Arr2 10000 128) (inc : Arr2 10000 10000) (ew0 : Arr2 128 64) (eb0 eg eb : Arr1 64)
    (ew1 : Arr2 64 64) (eb1 : Arr1 64) (cw : Arr2 64 64) (dw0 : Arr2 64 64) (db0 g b : Arr1 64)
    (dw1 : Arr2 64 128) (db1 : Arr1 128) : Arr2 10000 128 :=
  fun idx => decRow nrm
    (aggRow (mat inc (idx 0)) fun k => encRow nrm (mat x k) (mat ew0) (vec eb0) (vec eg) (vec eb) (mat ew1) (vec eb1) (mat cw))
    (mat dw0) (vec db0) (vec g) (vec b) (mat dw1) (vec db1) (idx 1)

/-! ## The two literals -/

/-- The word the programs write for the row length denotes the real `64`. -/
theorem c64_eq : c64 = ((64 : ℝ) : EReal) := by
  simp [c64, Ideal.ofBits, Ideal.ieee, -EReal.coe_mul]; norm_num

/-- The word the programs write for `ε` denotes a positive real (`10995116 / 2^40`). -/
theorem eps_eq : eps = ((10995116 / 1099511627776 : ℝ) : EReal) := by
  simp [eps, Ideal.ofBits, Ideal.ieee, -EReal.coe_mul]; norm_num

theorem eps_pos : 0 < eps := by
  rw [eps_eq]; exact_mod_cast (by norm_num : (0 : ℝ) < 10995116 / 1099511627776)

theorem c64_pos : 0 < c64 := by
  rw [c64_eq]; exact_mod_cast (by norm_num : (0 : ℝ) < 64)

/-! ## The normalisation law -/

/-- A square is nonnegative at every extended real: `(±∞)² = +∞`. -/
theorem mul_self_nonneg' (z : EReal) : 0 ≤ z * z := by
  induction z using EReal.rec with
  | bot => simp
  | top => simp
  | coe r => exact_mod_cast mul_self_nonneg r

/-- Dividing a nonnegative extended real by `64` keeps it nonnegative. -/
theorem div_c64_nonneg {s : EReal} (hs : 0 ≤ s) : 0 ≤ Ideal.div s c64 := by
  rw [c64_eq, Ideal.div_coe (by norm_num : (64 : ℝ) ≠ 0)]
  exact EReal.mul_nonneg hs (by exact_mod_cast (by norm_num : (0 : ℝ) ≤ 1 / 64))

/-- The variance is nonnegative, whatever the row holds. -/
theorem var_nonneg (r : Fin 64 → EReal) : 0 ≤ var r :=
  div_c64_nonneg (Finset.sum_nonneg fun j _ => mul_self_nonneg' (centred r j))

/-- `variance + ε` is positive (possibly `+∞`). -/
theorem var_add_eps_pos (r : Fin 64 → EReal) : 0 < var r + eps :=
  lt_of_lt_of_le eps_pos (le_add_of_nonneg_left (var_nonneg r))

/-- On `(0, +∞]` multiplying by the reciprocal square root is dividing by the square root, at every extended
    real `z`: for a positive real `y` both are `z · (√y)⁻¹`, and at `+∞` both are `z · 0`. -/
theorem mul_rsqrt_eq_div_sqrt (z y : EReal) (hy : 0 < y) : z * Ideal.rsqrt y = Ideal.div z (Ideal.sqrt y) := by
  induction y using EReal.rec with
  | bot => exact absurd hy (not_lt.mpr bot_le)
  | top => simp [Ideal.div]
  | coe r =>
    have hr : 0 < r := EReal.coe_pos.mp hy
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- The two spellings of the normalisation are one function. -/
theorem normK_eq_normR : normK = normR := by
  funext r g b j
  simp only [normK, normR, mul_rsqrt_eq_div_sqrt _ _ (var_add_eps_pos r)]

end Cert.RowSpec

end
-- ==== Proof.KerPieces.lean ====
/-
  What one run of the kernel's body leaves behind, as values.

  The body keeps the encoded rows in a buffer that survives from one grid point to the next.  At the first
  point it computes them from the node features (`msgK`) and stores them; at every point it then reads them
  back, multiplies the point's 400 incidence rows into them, normalises and decodes (`blockK`).  The three
  lemmas say that the stores the body makes hold exactly these values.
-/
import proofs.«112816_g47553877901911_cont_8to1c4_274_24_alg».proof.Proof.Gen.KernelIdeal.Frame
import proofs.«112816_g47553877901911_cont_8to1c4_274_24_alg».proof.Proof.Gen.KernelIdeal.Value
import Idealize.ShloMosaic.Lib.Pipeline.Value
import Idealize.ShloMosaic.Lib.Tactic

set_option maxRecDepth 16384

noncomputable section

namespace Cert.KernelIdeal.KerValue

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

/-- The zero offsets of a whole-buffer rectangle. -/
theorem hz : (![0, 0] : Fin 2 → Nat) = fun _ => 0 := funext fun a => by fin_cases a <;> rfl

/-- The encoded rows with the marker column appended: what the first grid point computes from the node
    features and the encoder's weights, as one value. -/
def msgK (x0 : Vec F S10000x128 .f32) (x2 : Vec F S128x64 .f32) (x3 x4 x5 : Vec F S1x64 .f32) (x6 : Vec F S64x64 .f32)
    (x7 : Vec F S1x64 .f32) (x8 : Vec F S64x64 .f32) : FVec F S10000x128 .f32 :=
  k0_pay3 (k0_pay2 x0 x2 x3 x4 x5 x6) x7 x8

/-- One block of 400 result rows: the decoder applied to the incidence rows' weighted average of the
    encoded rows `S`. -/
def blockK (x1 : Vec F S400x10000 .f32) (S : Vec F S10000x128 .f32) (x9 : Vec F S64x64 .f32) (x10 x11 x12 : Vec F S1x64 .f32)
    (x13 : Vec F S64x128 .f32) (x14 : Vec F S1x128 .f32) : FVec F S400x128 .f32 :=
  k0_pay1 (k0_pay4 x1 S x9 x10) (k0_pay5 x11) x12 x13 x14

/-- At the first grid point the body leaves the encoded rows in the carried buffer: its one store covers
    the buffer and its loads read whole buffers. -/
theorem sout_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x128 .f32) (harg14 : arg14.IsWhole) (arg15 : Memref sig .tc .vmem S1x128 .f32) (harg15 : arg15.IsWhole) (arg16 : Memref sig .tc .vmem S400x128 .f32) (harg16 : arg16.IsWhole) (arg17 : Memref sig .tc .vmem S10000x128 .f32) (harg17 : arg17.IsWhole) (hc0 : cond0_0 i)
    (x0 : Vec F S10000x128 .f32) (x1 : Vec F S400x10000 .f32) (x2 : Vec F S128x64 .f32) (x3 : Vec F S1x64 .f32) (x4 : Vec F S1x64 .f32) (x5 : Vec F S1x64 .f32) (x6 : Vec F S64x64 .f32) (x7 : Vec F S1x64 .f32) (x8 : Vec F S64x64 .f32) (x9 : Vec F S64x64 .f32) (x10 : Vec F S1x64 .f32) (x11 : Vec F S1x64 .f32) (x12 : Vec F S1x64 .f32) (x13 : Vec F S64x128 .f32) (x14 : Vec F S1x128 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = msgK x0 x2 x3 x4 x5 x6 x7 x8 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRun0_A
  dsimp only
  sl_unfold_words
  rw [View.canon_unit_zero hz]
  unfold msgK
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S10000x128) hz, View.ld_unit_zero (S := S400x10000) hz, View.ld_unit_zero (S := S128x64) hz, View.ld_unit_zero (S := S1x64) hz, View.ld_unit_zero (S := S64x64) hz, View.ld_unit_zero (S := S64x128) hz, View.ld_unit_zero (S := S1x128) hz, View.ld_unit_zero (S := S400x128) hz]

/-- At the first grid point the block the body writes back is `blockK` over the encoded rows it has just
    stored: the load of the carried buffer reads that store back. -/
theorem out_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x128 .f32) (harg14 : arg14.IsWhole) (arg15 : Memref sig .tc .vmem S1x128 .f32) (harg15 : arg15.IsWhole) (arg16 : Memref sig .tc .vmem S400x128 .f32) (harg16 : arg16.IsWhole) (arg17 : Memref sig .tc .vmem S10000x128 .f32) (harg17 : arg17.IsWhole) (hc0 : cond0_0 i)
    (x0 : Vec F S10000x128 .f32) (x1 : Vec F S400x10000 .f32) (x2 : Vec F S128x64 .f32) (x3 : Vec F S1x64 .f32) (x4 : Vec F S1x64 .f32) (x5 : Vec F S1x64 .f32) (x6 : Vec F S64x64 .f32) (x7 : Vec F S1x64 .f32) (x8 : Vec F S64x64 .f32) (x9 : Vec F S64x64 .f32) (x10 : Vec F S1x64 .f32) (x11 : Vec F S1x64 .f32) (x12 : Vec F S1x64 .f32) (x13 : Vec F S64x128 .f32) (x14 : Vec F S1x128 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 = blockK x1 (msgK x0 x2 x3 x4 x5 x6 x7 x8) x9 x10 x11 x12 x13 x14 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14)]
  unfold kernelRun0_A
  dsimp only
  sl_unfold_words
  rw [View.canon_unit_zero hz, View.readCov_unit_zero (S := S10000x128) _ hz]
  unfold blockK msgK
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S10000x128) hz, View.ld_unit_zero (S := S400x10000) hz, View.ld_unit_zero (S := S128x64) hz, View.ld_unit_zero (S := S1x64) hz, View.ld_unit_zero (S := S64x64) hz, View.ld_unit_zero (S := S64x128) hz, View.ld_unit_zero (S := S1x128) hz, View.ld_unit_zero (S := S400x128) hz]

/-- At every later grid point the block the body writes back is `blockK` over what the carried buffer held
    when the point began. -/
theorem out_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S64x128 .f32) (harg14 : arg14.IsWhole) (arg15 : Memref sig .tc .vmem S1x128 .f32) (harg15 : arg15.IsWhole) (arg16 : Memref sig .tc .vmem S400x128 .f32) (harg16 : arg16.IsWhole) (arg17 : Memref sig .tc .vmem S10000x128 .f32) (harg17 : arg17.IsWhole) (hc0 : ¬cond0_0 i)
    (x0 : Vec F S10000x128 .f32) (x1 : Vec F S400x10000 .f32) (x2 : Vec F S128x64 .f32) (x3 : Vec F S1x64 .f32) (x4 : Vec F S1x64 .f32) (x5 : Vec F S1x64 .f32) (x6 : Vec F S64x64 .f32) (x7 : Vec F S1x64 .f32) (x8 : Vec F S64x64 .f32) (x9 : Vec F S64x64 .f32) (x10 : Vec F S1x64 .f32) (x11 : Vec F S1x64 .f32) (x12 : Vec F S1x64 .f32) (x13 : Vec F S64x128 .f32) (x14 : Vec F S1x128 .f32) (xs0 : Vec F S10000x128 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0 = blockK x1 xs0 x9 x10 x11 x12 x13 x14 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xs0)]
  unfold kernelRun0_B
  dsimp only
  sl_unfold_words
  rw [View.canon_unit_zero hz]
  unfold blockK
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S10000x128) hz, View.ld_unit_zero (S := S400x10000) hz, View.ld_unit_zero (S := S128x64) hz, View.ld_unit_zero (S := S1x64) hz, View.ld_unit_zero (S := S64x64) hz, View.ld_unit_zero (S := S64x128) hz, View.ld_unit_zero (S := S1x128) hz, View.ld_unit_zero (S := S400x128) hz]

end Cert.KernelIdeal.KerValue

end
-- ==== Proof.KerChain.lean ====
/-
  The kernel's run over its 25 grid points, as values.

  The encoded rows are computed once, at the first grid point, from the node features and the encoder's
  weights, and kept; so after EVERY point the carried buffer holds that one value (`encoded`, by induction
  on the point: the first point stores it, every later point leaves the buffer as it found it).  Hence the
  block of 400 result rows written back at point `t` is the decoder's value on the incidence rows of block
  `t` over `encoded`, at the first point and at every later one alike (`block_eq`).
-/
import proofs.«112816_g47553877901911_cont_8to1c4_274_24_alg».proof.Proof.KerPieces

set_option maxRecDepth 16384

noncomputable section

namespace Cert.KernelIdeal.KerValue

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The grid is not empty (it has 25 points). -/
theorem pos0 : 0 < cfg0.N := Nat.lt_of_lt_of_eq (by decide : (0 : ℕ) < 25) (show cfg0.N = 25 from N_0).symm

/-- The first grid point. -/
def t0 : Fin cfg0.N := ⟨0, pos0⟩

/-- The encoded rows (with the marker column), from the whole arrays the first point's windows hold. -/
def encoded (c : Dev nD) : FVec F S10000x128 .f32 :=
  msgK (iblk m c 0 t0) (iblk m c 2 t0) (iblk m c 3 t0) (iblk m c 4 t0) (iblk m c 5 t0) (iblk m c 6 t0) (iblk m c 7 t0)
    (iblk m c 8 t0)

/-- After every grid point the carried buffer holds the encoded rows: the first point stores them, each
    later point keeps what the point before left. -/
theorem carried_eq (c : Dev nD) : ∀ (n : ℕ) (h : n < cfg0.N), (outsAt0 m c n h).2 = encoded m c
  | 0, h => by
    rw [outsAt0_A m c ⟨0, h⟩ rfl]
    dsimp only
    rw [sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (iblk m c 12 ⟨0, h⟩) (iblk m c 13 ⟨0, h⟩) (iblk m c 14 ⟨0, h⟩)]
    rfl
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact carried_eq c n (Nat.lt_of_succ_lt h)

/-- The block written back at grid point `t`: the decoder on the incidence rows of block `t`, over the
    encoded rows. -/
theorem block_eq (c : Dev nD) (t : Fin cfg0.N) :
    (outsAt0 m c t.val t.isLt).1
      = blockK (iblk m c 1 t) (encoded m c) (iblk m c 9 t) (iblk m c 10 t) (iblk m c 11 t) (iblk m c 12 t) (iblk m c 13 t)
          (iblk m c 14 t) := by
  have hN : cfg0.N = 25 := N_0
  by_cases h0 : t.val % 25 = 0
  · have ht : t = t0 := Fin.ext (by have := t.isLt; show t.val = 0; omega)
    rw [outsAt0_A m c t h0]
    dsimp only
    rw [out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)]
    subst ht
    rfl
  · rw [outsAt0_B m c t h0]
    dsimp only
    rw [out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      (outsAt0 m c (t.val - 1) (Nat.lt_of_le_of_lt (Nat.sub_le _ _) t.isLt)).2]
    rw [carried_eq m c (t.val - 1) (Nat.lt_of_le_of_lt (Nat.sub_le _ _) t.isLt)]

end Cert.KernelIdeal.KerValue

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.KerStages.lean ====
/-
  The two kinds of stage the network is made of, as operations on whole matrices of `M` rows, and each
  read at one entry.

  `biasRelu A bias` adds a one-row bias to every row of `A` and clamps at zero; after a matrix product it is
  the row-wise `affRelu`.  `normV H g b` subtracts from every row of `H` its mean, multiplies by the reciprocal
  square root of the row's mean square plus `ε`, scales by `g` and shifts by `b`: row `i` of the result is
  `normK` of row `i` of `H`.  Both are stated for any number of rows `M`, since the encoder works on all 10000
  rows at once and the decoder on blocks of 400.
-/
import proofs.«112816_g47553877901911_cont_8to1c4_274_24_alg».proof.Proof.RowSpec
import proofs.«112816_g47553877901911_cont_8to1c4_274_24_alg».proof.Proof.LibMatRows

noncomputable section

open Idealize.ShloMosaic Idealize.ShloMosaic.ValueIdx Cert.RowSpec Cert.MatRows

namespace Cert.Stages

/-- The zero word is the neutral accumulator of a float sum. -/
theorem acc_neutral (hφ : FKind.Formats .f32) : (0x00000000#32 : BitVec FTy.f32.bits) = FKind.add.neutral .f32 hφ := rfl

/-- Single precision is a format sums are taken at. -/
theorem fmt_f32 : FKind.Formats .f32 := .inl rfl

/-- A one-row matrix read by position. -/
def row1 {N : Nat} (v : FVec Ideal (⟨2, ![1, N]⟩ : Shape) .f32) : Fin N → EReal := fun j => v (ix2 (0 : Fin 1) j)

section
variable {M : Nat}

/-- A matrix product into a zero accumulator. -/
abbrev mm {K N : Nat} (d : DotDims ⟨2, ![M, K]⟩ ⟨2, ![K, N]⟩ ⟨2, ![M, N]⟩) (A : FVec Ideal ⟨2, ![M, K]⟩ .f32)
    (W : FVec Ideal ⟨2, ![K, N]⟩ .f32) : FVec Ideal ⟨2, ![M, N]⟩ .f32 :=
  matmul d none A W (constant ⟨2, ![M, N]⟩ .f32 0x00000000#32)

/-- Add a one-row bias to every row and clamp at zero. -/
def biasRelu {N : Nat} (A : FVec Ideal ⟨2, ![M, N]⟩ .f32) (bias : FVec Ideal ⟨2, ![1, N]⟩ .f32)
    (hsc : (⟨2, ![1, N]⟩ : Shape).ShapeCasts ⟨2, ![1, N]⟩) (hrb : (⟨2, ![1, N]⟩ : Shape).Broadcasts ⟨2, ![M, N]⟩) :
    FVec Ideal ⟨2, ![M, N]⟩ .f32 :=
  maximumf (addf A (broadcastTo ⟨2, ![M, N]⟩ (shapeCast ⟨2, ![1, N]⟩ bias hsc) hrb))
    (broadcast ⟨2, ![M, N]⟩ (Scalar.ofBits .f32 0x00000000#32))

theorem biasRelu_apply {N : Nat} (A : FVec Ideal ⟨2, ![M, N]⟩ .f32) (bias : FVec Ideal ⟨2, ![1, N]⟩ .f32)
    (hsc : (⟨2, ![1, N]⟩ : Shape).ShapeCasts ⟨2, ![1, N]⟩) (hrb : (⟨2, ![1, N]⟩ : Shape).Broadcasts ⟨2, ![M, N]⟩)
    (i : Fin M) (j : Fin N) : biasRelu A bias hsc hrb (ix2 i j) = max (A (ix2 i j) + row1 bias j) 0 := by
  show max (A (ix2 i j) + broadcastTo ⟨2, ![M, N]⟩ (shapeCast ⟨2, ![1, N]⟩ bias hsc) hrb (ix2 i j)) (Ideal.ofBits .f32 0x00000000#32) = _
  rw [broadcastTo_1b_ab_apply, shapeCast_self, Ideal.ofBits_zero_f32]
  rfl

/-- A product's row `i` is row `i` of the left factor times the right factor. -/
theorem mm_row {K N : Nat} (d : DotDims ⟨2, ![M, K]⟩ ⟨2, ![K, N]⟩ ⟨2, ![M, N]⟩)
    (hd : ∀ (A : FVec Ideal ⟨2, ![M, K]⟩ .f32) (W : FVec Ideal ⟨2, ![K, N]⟩ .f32) (i : Fin M) (j : Fin N),
      mm d A W (ix2 i j) = ∑ l : Fin K, A (ix2 i l) * W (ix2 l j))
    (A : FVec Ideal ⟨2, ![M, K]⟩ .f32) (W : FVec Ideal ⟨2, ![K, N]⟩ .f32) (i : Fin M) :
    mat (mm d A W) i = rowMat (mat A i) (mat W) :=
  funext fun j => hd A W i j

/-- A product followed by bias and clamp: row `i` is `affRelu` of row `i` of the left factor. -/
theorem affStage_row {K N : Nat} (d : DotDims ⟨2, ![M, K]⟩ ⟨2, ![K, N]⟩ ⟨2, ![M, N]⟩)
    (hd : ∀ (A : FVec Ideal ⟨2, ![M, K]⟩ .f32) (W : FVec Ideal ⟨2, ![K, N]⟩ .f32) (i : Fin M) (j : Fin N),
      mm d A W (ix2 i j) = ∑ l : Fin K, A (ix2 i l) * W (ix2 l j))
    (A : FVec Ideal ⟨2, ![M, K]⟩ .f32) (W : FVec Ideal ⟨2, ![K, N]⟩ .f32) (bias : FVec Ideal ⟨2, ![1, N]⟩ .f32)
    (hsc : (⟨2, ![1, N]⟩ : Shape).ShapeCasts ⟨2, ![1, N]⟩) (hrb : (⟨2, ![1, N]⟩ : Shape).Broadcasts ⟨2, ![M, N]⟩) (i : Fin M) :
    mat (biasRelu (mm d A W) bias hsc hrb) i = affRelu (mat A i) (mat W) (row1 bias) := by
  funext j
  show biasRelu (mm d A W) bias hsc hrb (ix2 i j) = _
  rw [biasRelu_apply, hd]
  rfl

variable (hred : (⟨2, ![M, 64]⟩ : Shape).Reduces [1] ⟨1, ![M]⟩) (hφ : FKind.Formats .f32)
  (hacc : (0x00000000#32 : BitVec FTy.f32.bits) = FKind.add.neutral .f32 hφ)
  (hcast : (⟨1, ![M]⟩ : Shape).ShapeCasts ⟨2, ![M, 1]⟩) (hcb : (⟨2, ![M, 1]⟩ : Shape).Broadcasts ⟨2, ![M, 64]⟩)
  (hsc : (⟨2, ![1, 64]⟩ : Shape).ShapeCasts ⟨2, ![1, 64]⟩) (hrb : (⟨2, ![1, 64]⟩ : Shape).Broadcasts ⟨2, ![M, 64]⟩)

/-- The rows' means, as a column. -/
def meanCol (H : FVec Ideal ⟨2, ![M, 64]⟩ .f32) : FVec Ideal ⟨2, ![M, 1]⟩ .f32 :=
  divf (shapeCast ⟨2, ![M, 1]⟩ (multiReduction .add [1] ⟨1, ![M]⟩ H 0x00000000#32 hred hφ hacc) hcast)
    (broadcast ⟨2, ![M, 1]⟩ (Scalar.ofBits .f32 0x42800000#32))

/-- Every row minus its mean. -/
def centV (H : FVec Ideal ⟨2, ![M, 64]⟩ .f32) : FVec Ideal ⟨2, ![M, 64]⟩ .f32 :=
  subf H (broadcastTo ⟨2, ![M, 64]⟩ (meanCol hred hφ hacc hcast H) hcb)

/-- The rows' mean squares after centring, as a column. -/
def varCol (H : FVec Ideal ⟨2, ![M, 64]⟩ .f32) : FVec Ideal ⟨2, ![M, 1]⟩ .f32 :=
  divf (shapeCast ⟨2, ![M, 1]⟩ (multiReduction .add [1] ⟨1, ![M]⟩
      (mulf (centV hred hφ hacc hcast hcb H) (centV hred hφ hacc hcast hcb H)) 0x00000000#32 hred hφ hacc) hcast)
    (broadcast ⟨2, ![M, 1]⟩ (Scalar.ofBits .f32 0x42800000#32))

/-- Every row normalised by the reciprocal square root, scaled and shifted. -/
def normV (H : FVec Ideal ⟨2, ![M, 64]⟩ .f32) (g b : FVec Ideal ⟨2, ![1, 64]⟩ .f32) : FVec Ideal ⟨2, ![M, 64]⟩ .f32 :=
  addf (mulf (mulf (centV hred hφ hacc hcast hcb H)
      (broadcastTo ⟨2, ![M, 64]⟩ (rsqrt (addf (varCol hred hφ hacc hcast hcb H)
        (broadcast ⟨2, ![M, 1]⟩ (Scalar.ofBits .f32 0x3727C5AC#32)))) hcb))
      (broadcastTo ⟨2, ![M, 64]⟩ (shapeCast ⟨2, ![1, 64]⟩ g hsc) hrb))
    (broadcastTo ⟨2, ![M, 64]⟩ (shapeCast ⟨2, ![1, 64]⟩ b hsc) hrb)

theorem meanCol_apply (H : FVec Ideal ⟨2, ![M, 64]⟩ .f32) (i : Fin M) (z : Fin 1) :
    meanCol hred hφ hacc hcast H (ix2 i z) = mean (mat H i) := by
  show Ideal.div (shapeCast ⟨2, ![M, 1]⟩ (multiReduction .add [1] ⟨1, ![M]⟩ H 0x00000000#32 hred hφ hacc) hcast (ix2 i z))
      (Ideal.ofBits .f32 0x42800000#32) = _
  rw [colCast_apply, laneSum_apply]
  rfl

theorem centV_apply (H : FVec Ideal ⟨2, ![M, 64]⟩ .f32) (i : Fin M) (j : Fin 64) :
    centV hred hφ hacc hcast hcb H (ix2 i j) = centred (mat H i) j := by
  show H (ix2 i j) - broadcastTo ⟨2, ![M, 64]⟩ (meanCol hred hφ hacc hcast H) hcb (ix2 i j) = _
  rw [colBroadcast_apply, meanCol_apply]
  rfl

theorem varCol_apply (H : FVec Ideal ⟨2, ![M, 64]⟩ .f32) (i : Fin M) (z : Fin 1) :
    varCol hred hφ hacc hcast hcb H (ix2 i z) = var (mat H i) := by
  show Ideal.div (shapeCast ⟨2, ![M, 1]⟩ (multiReduction .add [1] ⟨1, ![M]⟩
      (mulf (centV hred hφ hacc hcast hcb H) (centV hred hφ hacc hcast hcb H)) 0x00000000#32 hred hφ hacc) hcast (ix2 i z))
      (Ideal.ofBits .f32 0x42800000#32) = _
  rw [colCast_apply, laneSum_apply]
  simp only [mulf_apply, centV_apply]
  rfl

theorem normV_apply (H : FVec Ideal ⟨2, ![M, 64]⟩ .f32) (g b : FVec Ideal ⟨2, ![1, 64]⟩ .f32) (i : Fin M) (j : Fin 64) :
    normV hred hφ hacc hcast hcb hsc hrb H g b (ix2 i j) = normK (mat H i) (row1 g) (row1 b) j := by
  show centV hred hφ hacc hcast hcb H (ix2 i j)
        * broadcastTo ⟨2, ![M, 64]⟩ (rsqrt (addf (varCol hred hφ hacc hcast hcb H)
            (broadcast ⟨2, ![M, 1]⟩ (Scalar.ofBits .f32 0x3727C5AC#32)))) hcb (ix2 i j)
        * broadcastTo ⟨2, ![M, 64]⟩ (shapeCast ⟨2, ![1, 64]⟩ g hsc) hrb (ix2 i j)
      + broadcastTo ⟨2, ![M, 64]⟩ (shapeCast ⟨2, ![1, 64]⟩ b hsc) hrb (ix2 i j) = _
  rw [colBroadcast_apply, broadcastTo_1b_ab_apply, broadcastTo_1b_ab_apply, shapeCast_self, shapeCast_self, centV_apply]
  show centred (mat H i) j * Ideal.rsqrt (varCol hred hφ hacc hcast hcb H (ix2 i (0 : Fin 1)) + Ideal.ofBits .f32 0x3727C5AC#32)
      * g (ix2 (0 : Fin 1) j) + b (ix2 (0 : Fin 1) j) = _
  rw [varCol_apply]
  rfl

/-- Row `i` of the normalised matrix is `normK` of row `i`. -/
theorem normStage_row (H : FVec Ideal ⟨2, ![M, 64]⟩ .f32) (g b : FVec Ideal ⟨2, ![1, 64]⟩ .f32) (i : Fin M) :
    mat (normV hred hφ hacc hcast hcb hsc hrb H g b) i = normK (mat H i) (row1 g) (row1 b) :=
  funext fun j => normV_apply hred hφ hacc hcast hcb hsc hrb H g b i j

end

end Cert.Stages

end
-- ==== Proof.KerRead.lean ====
/-
  The kernel's two values read at one entry.

  The encoded matrix: its row `k` is the encoder applied to row `k` of the node features (`encV_row`).  The
  kernel keeps it as the left half of a 128-column matrix whose column 64 is the constant `1` (`msgK_lo`,
  `msgK_one`).  A block of results: multiplying 400 incidence rows into that matrix gives, in columns 0–63,
  the weighted sums of the encoded rows and, in column 64, the incidence rows' own sums, since `x · 1 = x` on
  the extended reals; their quotient is the weighted average (`aggV_row`), and row `p` of the block is the
  decoder applied to it (`blockK_row`).
-/
import proofs.«112816_g47553877901911_cont_8to1c4_274_24_alg».proof.Proof.KerPieces
import proofs.«112816_g47553877901911_cont_8to1c4_274_24_alg».proof.Proof.KerStages

set_option maxRecDepth 16384

noncomputable section

namespace Cert.KernelIdeal.KerValue

open Idealize.ShloMosaic Idealize.ShloMosaic.ValueIdx Idealize.ShloMosaic.TcCoe
open Cert.RowSpec Cert.MatRows Cert.Stages
open Cert.KernelIdeal Cert.KernelIdeal.Gen

/-! ## The five products -/

theorem mm1 (A : FVec Ideal S10000x128 .f32) (W : FVec Ideal S128x64 .f32) (i : Fin 10000) (j : Fin 64) :
    mm dot_S10000x128_S128x64_S10000x64_1_0_0_1_n_n A W (ix2 i j) = ∑ l : Fin 128, A (ix2 i l) * W (ix2 l j) :=
  matmul_zero_apply dot_S10000x128_S128x64_S10000x64_1_0_0_1_n_n rfl rfl (fun _ _ => rfl) (fun _ _ => rfl) (fun _ _ => rfl) (fun _ _ => rfl) A W i j

theorem mm2 (A : FVec Ideal S10000x64 .f32) (W : FVec Ideal S64x64 .f32) (i : Fin 10000) (j : Fin 64) :
    mm dot_S10000x64_S64x64_S10000x64_1_0_0_1_n_n A W (ix2 i j) = ∑ l : Fin 64, A (ix2 i l) * W (ix2 l j) :=
  matmul_zero_apply dot_S10000x64_S64x64_S10000x64_1_0_0_1_n_n rfl rfl (fun _ _ => rfl) (fun _ _ => rfl) (fun _ _ => rfl) (fun _ _ => rfl) A W i j

theorem mm3 (A : FVec Ideal S400x10000 .f32) (W : FVec Ideal S10000x128 .f32) (i : Fin 400) (j : Fin 128) :
    mm dot_S400x10000_S10000x128_S400x128_1_0_0_1_n_n A W (ix2 i j) = ∑ l : Fin 10000, A (ix2 i l) * W (ix2 l j) :=
  matmul_zero_apply dot_S400x10000_S10000x128_S400x128_1_0_0_1_n_n rfl rfl (fun _ _ => rfl) (fun _ _ => rfl) (fun _ _ => rfl) (fun _ _ => rfl) A W i j

theorem mm4 (A : FVec Ideal S400x64 .f32) (W : FVec Ideal S64x64 .f32) (i : Fin 400) (j : Fin 64) :
    mm dot_S400x64_S64x64_S400x64_1_0_0_1_n_n A W (ix2 i j) = ∑ l : Fin 64, A (ix2 i l) * W (ix2 l j) :=
  matmul_zero_apply dot_S400x64_S64x64_S400x64_1_0_0_1_n_n rfl rfl (fun _ _ => rfl) (fun _ _ => rfl) (fun _ _ => rfl) (fun _ _ => rfl) A W i j

theorem mm5 (A : FVec Ideal S400x64 .f32) (W : FVec Ideal S64x128 .f32) (i : Fin 400) (j : Fin 128) :
    mm dot_S400x64_S64x128_S400x128_1_0_0_1_n_n A W (ix2 i j) = ∑ l : Fin 64, A (ix2 i l) * W (ix2 l j) :=
  matmul_zero_apply dot_S400x64_S64x128_S400x128_1_0_0_1_n_n rfl rfl (fun _ _ => rfl) (fun _ _ => rfl) (fun _ _ => rfl) (fun _ _ => rfl) A W i j

/-! ## The encoded matrix -/

/-- The marker block: `1` in its first column, `0` elsewhere. -/
def markV : FVec Ideal S10000x64 .f32 :=
  sitofp .f32 (extui 32 (cmpi .eq (iota .tc S10000x64 32 [1] iota_S10000x64_d1_w32) (broadcast S10000x64 (0#32 : BitVec 32))) natLt_1_32)

/-- The encoder on all rows at once. -/
def encV (x0 : Vec Ideal S10000x128 .f32) (x2 : Vec Ideal S128x64 .f32) (x3 x4 x5 : Vec Ideal S1x64 .f32) (x6 : Vec Ideal S64x64 .f32) (x7 : Vec Ideal S1x64 .f32) (x8 : Vec Ideal S64x64 .f32) : FVec Ideal S10000x64 .f32 :=
  mm dot_S10000x64_S64x64_S10000x64_1_0_0_1_n_n (biasRelu (mm dot_S10000x64_S64x64_S10000x64_1_0_0_1_n_n
      (normV reduces_S10000x64_S10000 fmt_f32 (acc_neutral fmt_f32) shapeCasts_S10000_S10000x1 broadcasts_S10000x1_S10000x64 shapeCasts_S1x64_S1x64 broadcasts_S1x64_S10000x64
        (biasRelu (mm dot_S10000x128_S128x64_S10000x64_1_0_0_1_n_n x0 x2) x3 shapeCasts_S1x64_S1x64 broadcasts_S1x64_S10000x64) x4 x5) x6)
    x7 shapeCasts_S1x64_S1x64 broadcasts_S1x64_S10000x64) x8

/-- What the first grid point stores: the encoded matrix and the marker block side by side. -/
theorem msgK_eq (x0 : Vec Ideal S10000x128 .f32) (x2 : Vec Ideal S128x64 .f32) (x3 x4 x5 : Vec Ideal S1x64 .f32) (x6 : Vec Ideal S64x64 .f32) (x7 : Vec Ideal S1x64 .f32) (x8 : Vec Ideal S64x64 .f32) :
    msgK x0 x2 x3 x4 x5 x6 x7 x8
      = shapeCast S10000x128 (concatenate S10000x128 1 [⟨S10000x64, encV x0 x2 x3 x4 x5 x6 x7 x8⟩, ⟨S10000x64, markV⟩]
          concatenates_S10000x64_S10000x64_S10000x128_d1) shapeCasts_S10000x128_S10000x128 := rfl

/-- Row `k` of the encoded matrix is the encoder on row `k` of the features. -/
theorem encV_row (x0 : Vec Ideal S10000x128 .f32) (x2 : Vec Ideal S128x64 .f32) (x3 x4 x5 : Vec Ideal S1x64 .f32) (x6 : Vec Ideal S64x64 .f32) (x7 : Vec Ideal S1x64 .f32) (x8 : Vec Ideal S64x64 .f32) (k : Fin 10000) :
    mat (encV x0 x2 x3 x4 x5 x6 x7 x8) k
      = encRow normK (mat x0 k) (mat x2) (row1 x3) (row1 x4) (row1 x5) (mat x6) (row1 x7) (mat x8) := by
  unfold encV
  rw [mm_row dot_S10000x64_S64x64_S10000x64_1_0_0_1_n_n mm2, affStage_row dot_S10000x64_S64x64_S10000x64_1_0_0_1_n_n mm2, normStage_row, affStage_row dot_S10000x128_S128x64_S10000x64_1_0_0_1_n_n mm1]
  rfl

/-- The marker block's first column is `1`. -/
theorem markV_zero (k : Fin 10000) : markV (ix2 k (0 : Fin 64)) = 1 := by
  show FloatOps.sitofp (F := Ideal) .f32 ((IntOp.cmpi .eq (iota .tc S10000x64 32 [1] iota_S10000x64_d1_w32 (ix2 k (0 : Fin 64))) (0#32 : BitVec 32)).setWidth 32) = (1 : EReal)
  rw [iota_single_apply]
  show FloatOps.sitofp (F := Ideal) .f32
      (BitVec.setWidth 32 (IntOp.cmpi .eq (BitVec.ofNat 32 0) (0#32 : BitVec 32))) = (1 : EReal)
  have h : BitVec.setWidth 32 (IntOp.cmpi .eq (BitVec.ofNat 32 0) (0#32 : BitVec 32)) = (1#32 : BitVec 32) := by decide
  rw [h]
  show (((1#32 : BitVec 32).toInt : ℝ) : EReal) = 1
  have h1 : (1#32 : BitVec 32).toInt = 1 := by decide
  rw [h1]
  simp

/-- Columns 0–63 of the stored matrix are the encoded rows. -/
theorem msgK_lo (x0 : Vec Ideal S10000x128 .f32) (x2 : Vec Ideal S128x64 .f32) (x3 x4 x5 : Vec Ideal S1x64 .f32) (x6 : Vec Ideal S64x64 .f32) (x7 : Vec Ideal S1x64 .f32) (x8 : Vec Ideal S64x64 .f32) (k : Fin 10000) (j : Fin 64) (j' : Fin 128) (hj : j'.val = j.val) :
    msgK x0 x2 x3 x4 x5 x6 x7 x8 (ix2 k j')
      = encRow normK (mat x0 k) (mat x2) (row1 x3) (row1 x4) (row1 x5) (mat x6) (row1 x7) (mat x8) j := by
  rw [msgK_eq, shapeCast_self]
  exact (sideBySide_left (w := 64) (n := 128) rfl (encV x0 x2 x3 x4 x5 x6 x7 x8) markV concatenates_S10000x64_S10000x64_S10000x128_d1 k j j' hj).trans
    (congrFun (encV_row x0 x2 x3 x4 x5 x6 x7 x8 k) j)

/-- Column 64 of the stored matrix is `1`. -/
theorem msgK_one (x0 : Vec Ideal S10000x128 .f32) (x2 : Vec Ideal S128x64 .f32) (x3 x4 x5 : Vec Ideal S1x64 .f32) (x6 : Vec Ideal S64x64 .f32) (x7 : Vec Ideal S1x64 .f32) (x8 : Vec Ideal S64x64 .f32) (k : Fin 10000) (j' : Fin 128) (hj : j'.val = 64) :
    msgK x0 x2 x3 x4 x5 x6 x7 x8 (ix2 k j') = 1 := by
  rw [msgK_eq, shapeCast_self]
  exact (sideBySide_right (w := 64) (n := 128) rfl (encV x0 x2 x3 x4 x5 x6 x7 x8) markV concatenates_S10000x64_S10000x64_S10000x128_d1 k (0 : Fin 64) j'
    (by rw [hj]; rfl)).trans (markV_zero k)

/-! ## A block of results -/

/-- The weighted averages for 400 nodes: the product's first 64 columns over its column 64. -/
def aggV (x1 : Vec Ideal S400x10000 .f32) (S : Vec Ideal S10000x128 .f32) : FVec Ideal S400x64 .f32 :=
  divf (extractStridedSlice S400x64 ![0, 0] (mm dot_S400x10000_S10000x128_S400x128_1_0_0_1_n_n x1 S) slices_S400x128_o0_0_S400x64)
    (broadcastTo S400x64 (extractStridedSlice S400x1 ![0, 64] (mm dot_S400x10000_S10000x128_S400x128_1_0_0_1_n_n x1 S) slices_S400x128_o0_64_S400x1) broadcasts_S400x1_S400x64)

/-- A block of results as a composition of the stages. -/
theorem blockK_eq (x1 : Vec Ideal S400x10000 .f32) (S : Vec Ideal S10000x128 .f32) (x9 : Vec Ideal S64x64 .f32) (x10 x11 x12 : Vec Ideal S1x64 .f32) (x13 : Vec Ideal S64x128 .f32) (x14 : Vec Ideal S1x128 .f32) :
    blockK x1 S x9 x10 x11 x12 x13 x14
      = biasRelu (mm dot_S400x64_S64x128_S400x128_1_0_0_1_n_n
          (normV reduces_S400x64_S400 fmt_f32 (acc_neutral fmt_f32) shapeCasts_S400_S400x1 broadcasts_S400x1_S400x64 shapeCasts_S1x64_S1x64 broadcasts_S1x64_S400x64
            (biasRelu (mm dot_S400x64_S64x64_S400x64_1_0_0_1_n_n (aggV x1 S) x9) x10 shapeCasts_S1x64_S1x64 broadcasts_S1x64_S400x64) x11 x12) x13)
          x14 shapeCasts_S1x128_S1x128 broadcasts_S1x128_S400x128 := rfl

/-- Row `p` of the averages: the incidence row's weighted average of the encoded rows `msg`, given that the
    stored matrix holds `msg` in columns 0–63 and `1` in column 64. -/
theorem aggV_row (x1 : Vec Ideal S400x10000 .f32) (S : Vec Ideal S10000x128 .f32) (msg : Fin 10000 → Fin 64 → EReal)
    (hlo : ∀ (k : Fin 10000) (j : Fin 64), S (ix2 k (⟨j.val, by have := j.isLt; omega⟩ : Fin 128)) = msg k j)
    (hone : ∀ k : Fin 10000, S (ix2 k (⟨64, by decide⟩ : Fin 128)) = 1) (p : Fin 400) :
    mat (aggV x1 S) p = aggRow (mat x1 p) msg := by
  funext j
  show Ideal.div (extractStridedSlice S400x64 ![0, 0] (mm dot_S400x10000_S10000x128_S400x128_1_0_0_1_n_n x1 S) slices_S400x128_o0_0_S400x64 (ix2 p j))
      (broadcastTo S400x64 (extractStridedSlice S400x1 ![0, 64] (mm dot_S400x10000_S10000x128_S400x128_1_0_0_1_n_n x1 S) slices_S400x128_o0_64_S400x1) broadcasts_S400x1_S400x64 (ix2 p j)) = _
  rw [colBroadcast_apply,
    slice2_axis1_apply 0 (mm dot_S400x10000_S10000x128_S400x128_1_0_0_1_n_n x1 S) slices_S400x128_o0_0_S400x64 p j (⟨j.val, by have := j.isLt; omega⟩ : Fin 128) (by simp),
    slice2_axis1_apply 64 (mm dot_S400x10000_S10000x128_S400x128_1_0_0_1_n_n x1 S) slices_S400x128_o0_64_S400x1 p (0 : Fin 1) (⟨64, by decide⟩ : Fin 128) (by simp),
    mm3, mm3]
  unfold aggRow
  congr 1
  · exact Finset.sum_congr rfl fun k _ => by rw [hlo k j]; rfl
  · exact Finset.sum_congr rfl fun k _ => by rw [hone k, mul_one]; rfl

/-- Row `p` of a block of results: the decoder on the weighted average at that node. -/
theorem blockK_row (x1 : Vec Ideal S400x10000 .f32) (S : Vec Ideal S10000x128 .f32) (x9 : Vec Ideal S64x64 .f32) (x10 x11 x12 : Vec Ideal S1x64 .f32) (x13 : Vec Ideal S64x128 .f32) (x14 : Vec Ideal S1x128 .f32) (msg : Fin 10000 → Fin 64 → EReal)
    (hlo : ∀ (k : Fin 10000) (j : Fin 64), S (ix2 k (⟨j.val, by have := j.isLt; omega⟩ : Fin 128)) = msg k j)
    (hone : ∀ k : Fin 10000, S (ix2 k (⟨64, by decide⟩ : Fin 128)) = 1) (p : Fin 400) :
    mat (blockK x1 S x9 x10 x11 x12 x13 x14) p
      = decRow normK (aggRow (mat x1 p) msg) (mat x9) (row1 x10) (row1 x11) (row1 x12) (mat x13) (row1 x14) := by
  rw [blockK_eq, affStage_row dot_S400x64_S64x128_S400x128_1_0_0_1_n_n mm5, normStage_row, affStage_row dot_S400x64_S64x64_S400x64_1_0_0_1_n_n mm4, aggV_row x1 S msg hlo hone]
  rfl

end Cert.KernelIdeal.KerValue

end
-- ==== Proof.KerValue.lean ====
/-
  The kernel's run, read: the result array is the network of the argument arrays.

  Every window but two holds its whole array at every grid point; the bias vectors are staged as one-row
  matrices; the incidence window holds, at grid point `t`, the rows `400·t … 400·t + 399` of the incidence
  matrix, and the result window writes the same rows of the result.  The 25 blocks tile the 10000 rows, so the
  result array is, entry by entry, `netOut` of the arguments.
-/
import proofs.«112816_g47553877901911_cont_8to1c4_274_24_alg».proof.Proof.KerChain
import proofs.«112816_g47553877901911_cont_8to1c4_274_24_alg».proof.Proof.KerRead
import Idealize.ShloMosaic.Lib.StableHlo.Run

set_option maxRecDepth 16384

noncomputable section

namespace Cert.KernelIdeal.KerValue

open Idealize.ShloMosaic Idealize.ShloMosaic.ValueIdx Idealize.ShloMosaic.TcCoe Idealize.SL.Sem
open Idealize.ShloMosaic.Pipeline (Dat)
open Cert.RowSpec Cert.MatRows Cert.Stages
open Cert.KernelIdeal Cert.KernelIdeal.Gen

variable (m : (ℓ : Loc nD τ sig) → Buf (Elt Ideal) ℓ) (ρ : Dev nD → PrngReg)

/-! ## What each window holds -/

theorem idx0 : ∀ t : Fin cfg0.N, win0_0.index t (0 : Fin 2) = 0 ∧ win0_0.index t (1 : Fin 2) = 0 :=
  (by decide +kernel : ∀ t : Fin grid0.N, _)

/-- Window 0 holds its whole array at every grid point. -/
theorem iblk0_apply (c : Dev nD) (t : Fin cfg0.N) (i : Fin 10000) (l : Fin 128) :
    iblk m c 0 t (ix2 i l) = V m c main_arg0 (ix2 i l) := by
  obtain ⟨e0, e1⟩ := idx0 t
  show V m c main_arg0 (((cfg0.win 0).blk t).view.emb (ix2 i l)) = V m c main_arg0 (ix2 i l)
  refine congrArg (V m c main_arg0) ?_
  funext a; apply Fin.ext
  match a with
  | ⟨0, _⟩ => show win0_0.index t (0 : Fin 2) * 10000 + 1 * i.val = i.val; omega
  | ⟨1, _⟩ => show win0_0.index t (1 : Fin 2) * 128 + 1 * l.val = l.val; omega

theorem mat_iblk0 (c : Dev nD) (t : Fin cfg0.N) : mat (iblk m c 0 t) = mat (m ((c : Thread nD τ).loc main_arg0)) := by
  funext i l
  show iblk m c 0 t (ix2 i l) = (m ((c : Thread nD τ).loc main_arg0)) (ix2 i l)
  rw [iblk0_apply, V_main_arg0]

theorem idx2 : ∀ t : Fin cfg0.N, win0_2.index t (0 : Fin 2) = 0 ∧ win0_2.index t (1 : Fin 2) = 0 :=
  (by decide +kernel : ∀ t : Fin grid0.N, _)

/-- Window 2 holds its whole array at every grid point. -/
theorem iblk2_apply (c : Dev nD) (t : Fin cfg0.N) (i : Fin 128) (l : Fin 64) :
    iblk m c 2 t (ix2 i l) = V m c main_arg2 (ix2 i l) := by
  obtain ⟨e0, e1⟩ := idx2 t
  show V m c main_arg2 (((cfg0.win 2).blk t).view.emb (ix2 i l)) = V m c main_arg2 (ix2 i l)
  refine congrArg (V m c main_arg2) ?_
  funext a; apply Fin.ext
  match a with
  | ⟨0, _⟩ => show win0_2.index t (0 : Fin 2) * 128 + 1 * i.val = i.val; omega
  | ⟨1, _⟩ => show win0_2.index t (1 : Fin 2) * 64 + 1 * l.val = l.val; omega

theorem mat_iblk2 (c : Dev nD) (t : Fin cfg0.N) : mat (iblk m c 2 t) = mat (m ((c : Thread nD τ).loc main_arg2)) := by
  funext i l
  show iblk m c 2 t (ix2 i l) = (m ((c : Thread nD τ).loc main_arg2)) (ix2 i l)
  rw [iblk2_apply, V_main_arg2]

theorem idx3 : ∀ t : Fin cfg0.N, win0_3.index t (0 : Fin 2) = 0 ∧ win0_3.index t (1 : Fin 2) = 0 :=
  (by decide +kernel : ∀ t : Fin grid0.N, _)

/-- Window 3 holds its whole array at every grid point. -/
theorem iblk3_apply (c : Dev nD) (t : Fin cfg0.N) (i : Fin 1) (l : Fin 64) :
    iblk m c 3 t (ix2 i l) = V m c main_v0 (ix2 i l) := by
  obtain ⟨e0, e1⟩ := idx3 t
  show V m c main_v0 (((cfg0.win 3).blk t).view.emb (ix2 i l)) = V m c main_v0 (ix2 i l)
  refine congrArg (V m c main_v0) ?_
  funext a; apply Fin.ext
  match a with
  | ⟨0, _⟩ => show win0_3.index t (0 : Fin 2) * 1 + 1 * i.val = i.val; omega
  | ⟨1, _⟩ => show win0_3.index t (1 : Fin 2) * 64 + 1 * l.val = l.val; omega

/-- The array window 3 stages is the bias vector viewed as one row. -/
theorem V_main_v0 (c : Dev nD) :
    (V m c main_v0 : S1x64.Idx → EReal) = shapeCast S1x64 (m ((c : Thread nD τ).loc main_arg3)) shapeCasts_S64_S1x64 := by
  dsimp only [Gen.V, Gen.hostOps0]; after_results; rfl

theorem row1_iblk3 (c : Dev nD) (t : Fin cfg0.N) : row1 (iblk m c 3 t) = vec (m ((c : Thread nD τ).loc main_arg3)) := by
  funext l
  show iblk m c 3 t (ix2 (0 : Fin 1) l) = (m ((c : Thread nD τ).loc main_arg3)) (ix1 l)
  rw [iblk3_apply, V_main_v0]
  exact shapeCast_a_1a_apply _ _ (0 : Fin 1) l

theorem idx4 : ∀ t : Fin cfg0.N, win0_4.index t (0 : Fin 2) = 0 ∧ win0_4.index t (1 : Fin 2) = 0 :=
  (by decide +kernel : ∀ t : Fin grid0.N, _)

/-- Window 4 holds its whole array at every grid point. -/
theorem iblk4_apply (c : Dev nD) (t : Fin cfg0.N) (i : Fin 1) (l : Fin 64) :
    iblk m c 4 t (ix2 i l) = V m c main_v1 (ix2 i l) := by
  obtain ⟨e0, e1⟩ := idx4 t
  show V m c main_v1 (((cfg0.win 4).blk t).view.emb (ix2 i l)) = V m c main_v1 (ix2 i l)
  refine congrArg (V m c main_v1) ?_
  funext a; apply Fin.ext
  match a with
  | ⟨0, _⟩ => show win0_4.index t (0 : Fin 2) * 1 + 1 * i.val = i.val; omega
  | ⟨1, _⟩ => show win0_4.index t (1 : Fin 2) * 64 + 1 * l.val = l.val; omega

/-- The array window 4 stages is the bias vector viewed as one row. -/
theorem V_main_v1 (c : Dev nD) :
    (V m c main_v1 : S1x64.Idx → EReal) = shapeCast S1x64 (m ((c : Thread nD τ).loc main_arg4)) shapeCasts_S64_S1x64 := by
  dsimp only [Gen.V, Gen.hostOps0]; after_results; rfl

theorem row1_iblk4 (c : Dev nD) (t : Fin cfg0.N) : row1 (iblk m c 4 t) = vec (m ((c : Thread nD τ).loc main_arg4)) := by
  funext l
  show iblk m c 4 t (ix2 (0 : Fin 1) l) = (m ((c : Thread nD τ).loc main_arg4)) (ix1 l)
  rw [iblk4_apply, V_main_v1]
  exact shapeCast_a_1a_apply _ _ (0 : Fin 1) l

theorem idx5 : ∀ t : Fin cfg0.N, win0_5.index t (0 : Fin 2) = 0 ∧ win0_5.index t (1 : Fin 2) = 0 :=
  (by decide +kernel : ∀ t : Fin grid0.N, _)

/-- Window 5 holds its whole array at every grid point. -/
theorem iblk5_apply (c : Dev nD) (t : Fin cfg0.N) (i : Fin 1) (l : Fin 64) :
    iblk m c 5 t (ix2 i l) = V m c main_v2 (ix2 i l) := by
  obtain ⟨e0, e1⟩ := idx5 t
  show V m c main_v2 (((cfg0.win 5).blk t).view.emb (ix2 i l)) = V m c main_v2 (ix2 i l)
  refine congrArg (V m c main_v2) ?_
  funext a; apply Fin.ext
  match a with
  | ⟨0, _⟩ => show win0_5.index t (0 : Fin 2) * 1 + 1 * i.val = i.val; omega
  | ⟨1, _⟩ => show win0_5.index t (1 : Fin 2) * 64 + 1 * l.val = l.val; omega

/-- The array window 5 stages is the bias vector viewed as one row. -/
theorem V_main_v2 (c : Dev nD) :
    (V m c main_v2 : S1x64.Idx → EReal) = shapeCast S1x64 (m ((c : Thread nD τ).loc main_arg5)) shapeCasts_S64_S1x64 := by
  dsimp only [Gen.V, Gen.hostOps0]; after_results; rfl

theorem row1_iblk5 (c : Dev nD) (t : Fin cfg0.N) : row1 (iblk m c 5 t) = vec (m ((c : Thread nD τ).loc main_arg5)) := by
  funext l
  show iblk m c 5 t (ix2 (0 : Fin 1) l) = (m ((c : Thread nD τ).loc main_arg5)) (ix1 l)
  rw [iblk5_apply, V_main_v2]
  exact shapeCast_a_1a_apply _ _ (0 : Fin 1) l

theorem idx6 : ∀ t : Fin cfg0.N, win0_6.index t (0 : Fin 2) = 0 ∧ win0_6.index t (1 : Fin 2) = 0 :=
  (by decide +kernel : ∀ t : Fin grid0.N, _)

/-- Window 6 holds its whole array at every grid point. -/
theorem iblk6_apply (c : Dev nD) (t : Fin cfg0.N) (i : Fin 64) (l : Fin 64) :
    iblk m c 6 t (ix2 i l) = V m c main_arg6 (ix2 i l) := by
  obtain ⟨e0, e1⟩ := idx6 t
  show V m c main_arg6 (((cfg0.win 6).blk t).view.emb (ix2 i l)) = V m c main_arg6 (ix2 i l)
  refine congrArg (V m c main_arg6) ?_
  funext a; apply Fin.ext
  match a with
  | ⟨0, _⟩ => show win0_6.index t (0 : Fin 2) * 64 + 1 * i.val = i.val; omega
  | ⟨1, _⟩ => show win0_6.index t (1 : Fin 2) * 64 + 1 * l.val = l.val; omega

theorem mat_iblk6 (c : Dev nD) (t : Fin cfg0.N) : mat (iblk m c 6 t) = mat (m ((c : Thread nD τ).loc main_arg6)) := by
  funext i l
  show iblk m c 6 t (ix2 i l) = (m ((c : Thread nD τ).loc main_arg6)) (ix2 i l)
  rw [iblk6_apply, V_main_arg6]

theorem idx7 : ∀ t : Fin cfg0.N, win0_7.index t (0 : Fin 2) = 0 ∧ win0_7.index t (1 : Fin 2) = 0 :=
  (by decide +kernel : ∀ t : Fin grid0.N, _)

/-- Window 7 holds its whole array at every grid point. -/
theorem iblk7_apply (c : Dev nD) (t : Fin cfg0.N) (i : Fin 1) (l : Fin 64) :
    iblk m c 7 t (ix2 i l) = V m c main_v3 (ix2 i l) := by
  obtain ⟨e0, e1⟩ := idx7 t
  show V m c main_v3 (((cfg0.win 7).blk t).view.emb (ix2 i l)) = V m c main_v3 (ix2 i l)
  refine congrArg (V m c main_v3) ?_
  funext a; apply Fin.ext
  match a with
  | ⟨0, _⟩ => show win0_7.index t (0 : Fin 2) * 1 + 1 * i.val = i.val; omega
  | ⟨1, _⟩ => show win0_7.index t (1 : Fin 2) * 64 + 1 * l.val = l.val; omega

/-- The array window 7 stages is the bias vector viewed as one row. -/
theorem V_main_v3 (c : Dev nD) :
    (V m c main_v3 : S1x64.Idx → EReal) = shapeCast S1x64 (m ((c : Thread nD τ).loc main_arg7)) shapeCasts_S64_S1x64 := by
  dsimp only [Gen.V, Gen.hostOps0]; after_results; rfl

theorem row1_iblk7 (c : Dev nD) (t : Fin cfg0.N) : row1 (iblk m c 7 t) = vec (m ((c : Thread nD τ).loc main_arg7)) := by
  funext l
  show iblk m c 7 t (ix2 (0 : Fin 1) l) = (m ((c : Thread nD τ).loc main_arg7)) (ix1 l)
  rw [iblk7_apply, V_main_v3]
  exact shapeCast_a_1a_apply _ _ (0 : Fin 1) l

theorem idx8 : ∀ t : Fin cfg0.N, win0_8.index t (0 : Fin 2) = 0 ∧ win0_8.index t (1 : Fin 2) = 0 :=
  (by decide +kernel : ∀ t : Fin grid0.N, _)

/-- Window 8 holds its whole array at every grid point. -/
theorem iblk8_apply (c : Dev nD) (t : Fin cfg0.N) (i : Fin 64) (l : Fin 64) :
    iblk m c 8 t (ix2 i l) = V m c main_arg8 (ix2 i l) := by
  obtain ⟨e0, e1⟩ := idx8 t
  show V m c main_arg8 (((cfg0.win 8).blk t).view.emb (ix2 i l)) = V m c main_arg8 (ix2 i l)
  refine congrArg (V m c main_arg8) ?_
  funext a; apply Fin.ext
  match a with
  | ⟨0, _⟩ => show win0_8.index t (0 : Fin 2) * 64 + 1 * i.val = i.val; omega
  | ⟨1, _⟩ => show win0_8.index t (1 : Fin 2) * 64 + 1 * l.val = l.val; omega

theorem mat_iblk8 (c : Dev nD) (t : Fin cfg0.N) : mat (iblk m c 8 t) = mat (m ((c : Thread nD τ).loc main_arg8)) := by
  funext i l
  show iblk m c 8 t (ix2 i l) = (m ((c : Thread nD τ).loc main_arg8)) (ix2 i l)
  rw [iblk8_apply, V_main_arg8]

theorem idx9 : ∀ t : Fin cfg0.N, win0_9.index t (0 : Fin 2) = 0 ∧ win0_9.index t (1 : Fin 2) = 0 :=
  (by decide +kernel : ∀ t : Fin grid0.N, _)

/-- Window 9 holds its whole array at every grid point. -/
theorem iblk9_apply (c : Dev nD) (t : Fin cfg0.N) (i : Fin 64) (l : Fin 64) :
    iblk m c 9 t (ix2 i l) = V m c main_arg9 (ix2 i l) := by
  obtain ⟨e0, e1⟩ := idx9 t
  show V m c main_arg9 (((cfg0.win 9).blk t).view.emb (ix2 i l)) = V m c main_arg9 (ix2 i l)
  refine congrArg (V m c main_arg9) ?_
  funext a; apply Fin.ext
  match a with
  | ⟨0, _⟩ => show win0_9.index t (0 : Fin 2) * 64 + 1 * i.val = i.val; omega
  | ⟨1, _⟩ => show win0_9.index t (1 : Fin 2) * 64 + 1 * l.val = l.val; omega

theorem mat_iblk9 (c : Dev nD) (t : Fin cfg0.N) : mat (iblk m c 9 t) = mat (m ((c : Thread nD τ).loc main_arg9)) := by
  funext i l
  show iblk m c 9 t (ix2 i l) = (m ((c : Thread nD τ).loc main_arg9)) (ix2 i l)
  rw [iblk9_apply, V_main_arg9]

theorem idx10 : ∀ t : Fin cfg0.N, win0_10.index t (0 : Fin 2) = 0 ∧ win0_10.index t (1 : Fin 2) = 0 :=
  (by decide +kernel : ∀ t : Fin grid0.N, _)

/-- Window 10 holds its whole array at every grid point. -/
theorem iblk10_apply (c : Dev nD) (t : Fin cfg0.N) (i : Fin 1) (l : Fin 64) :
    iblk m c 10 t (ix2 i l) = V m c main_v4 (ix2 i l) := by
  obtain ⟨e0, e1⟩ := idx10 t
  show V m c main_v4 (((cfg0.win 10).blk t).view.emb (ix2 i l)) = V m c main_v4 (ix2 i l)
  refine congrArg (V m c main_v4) ?_
  funext a; apply Fin.ext
  match a with
  | ⟨0, _⟩ => show win0_10.index t (0 : Fin 2) * 1 + 1 * i.val = i.val; omega
  | ⟨1, _⟩ => show win0_10.index t (1 : Fin 2) * 64 + 1 * l.val = l.val; omega

/-- The array window 10 stages is the bias vector viewed as one row. -/
theorem V_main_v4 (c : Dev nD) :
    (V m c main_v4 : S1x64.Idx → EReal) = shapeCast S1x64 (m ((c : Thread nD τ).loc main_arg10)) shapeCasts_S64_S1x64 := by
  dsimp only [Gen.V, Gen.hostOps0]; after_results; rfl

theorem row1_iblk10 (c : Dev nD) (t : Fin cfg0.N) : row1 (iblk m c 10 t) = vec (m ((c : Thread nD τ).loc main_arg10)) := by
  funext l
  show iblk m c 10 t (ix2 (0 : Fin 1) l) = (m ((c : Thread nD τ).loc main_arg10)) (ix1 l)
  rw [iblk10_apply, V_main_v4]
  exact shapeCast_a_1a_apply _ _ (0 : Fin 1) l

theorem idx11 : ∀ t : Fin cfg0.N, win0_11.index t (0 : Fin 2) = 0 ∧ win0_11.index t (1 : Fin 2) = 0 :=
  (by decide +kernel : ∀ t : Fin grid0.N, _)

/-- Window 11 holds its whole array at every grid point. -/
theorem iblk11_apply (c : Dev nD) (t : Fin cfg0.N) (i : Fin 1) (l : Fin 64) :
    iblk m c 11 t (ix2 i l) = V m c main_v5 (ix2 i l) := by
  obtain ⟨e0, e1⟩ := idx11 t
  show V m c main_v5 (((cfg0.win 11).blk t).view.emb (ix2 i l)) = V m c main_v5 (ix2 i l)
  refine congrArg (V m c main_v5) ?_
  funext a; apply Fin.ext
  match a with
  | ⟨0, _⟩ => show win0_11.index t (0 : Fin 2) * 1 + 1 * i.val = i.val; omega
  | ⟨1, _⟩ => show win0_11.index t (1 : Fin 2) * 64 + 1 * l.val = l.val; omega

/-- The array window 11 stages is the bias vector viewed as one row. -/
theorem V_main_v5 (c : Dev nD) :
    (V m c main_v5 : S1x64.Idx → EReal) = shapeCast S1x64 (m ((c : Thread nD τ).loc main_arg11)) shapeCasts_S64_S1x64 := by
  dsimp only [Gen.V, Gen.hostOps0]; after_results; rfl

theorem row1_iblk11 (c : Dev nD) (t : Fin cfg0.N) : row1 (iblk m c 11 t) = vec (m ((c : Thread nD τ).loc main_arg11)) := by
  funext l
  show iblk m c 11 t (ix2 (0 : Fin 1) l) = (m ((c : Thread nD τ).loc main_arg11)) (ix1 l)
  rw [iblk11_apply, V_main_v5]
  exact shapeCast_a_1a_apply _ _ (0 : Fin 1) l

theorem idx12 : ∀ t : Fin cfg0.N, win0_12.index t (0 : Fin 2) = 0 ∧ win0_12.index t (1 : Fin 2) = 0 :=
  (by decide +kernel : ∀ t : Fin grid0.N, _)

/-- Window 12 holds its whole array at every grid point. -/
theorem iblk12_apply (c : Dev nD) (t : Fin cfg0.N) (i : Fin 1) (l : Fin 64) :
    iblk m c 12 t (ix2 i l) = V m c main_v6 (ix2 i l) := by
  obtain ⟨e0, e1⟩ := idx12 t
  show V m c main_v6 (((cfg0.win 12).blk t).view.emb (ix2 i l)) = V m c main_v6 (ix2 i l)
  refine congrArg (V m c main_v6) ?_
  funext a; apply Fin.ext
  match a with
  | ⟨0, _⟩ => show win0_12.index t (0 : Fin 2) * 1 + 1 * i.val = i.val; omega
  | ⟨1, _⟩ => show win0_12.index t (1 : Fin 2) * 64 + 1 * l.val = l.val; omega

/-- The array window 12 stages is the bias vector viewed as one row. -/
theorem V_main_v6 (c : Dev nD) :
    (V m c main_v6 : S1x64.Idx → EReal) = shapeCast S1x64 (m ((c : Thread nD τ).loc main_arg12)) shapeCasts_S64_S1x64 := by
  dsimp only [Gen.V, Gen.hostOps0]; after_results; rfl

theorem row1_iblk12 (c : Dev nD) (t : Fin cfg0.N) : row1 (iblk m c 12 t) = vec (m ((c : Thread nD τ).loc main_arg12)) := by
  funext l
  show iblk m c 12 t (ix2 (0 : Fin 1) l) = (m ((c : Thread nD τ).loc main_arg12)) (ix1 l)
  rw [iblk12_apply, V_main_v6]
  exact shapeCast_a_1a_apply _ _ (0 : Fin 1) l

theorem idx13 : ∀ t : Fin cfg0.N, win0_13.index t (0 : Fin 2) = 0 ∧ win0_13.index t (1 : Fin 2) = 0 :=
  (by decide +kernel : ∀ t : Fin grid0.N, _)

/-- Window 13 holds its whole array at every grid point. -/
theorem iblk13_apply (c : Dev nD) (t : Fin cfg0.N) (i : Fin 64) (l : Fin 128) :
    iblk m c 13 t (ix2 i l) = V m c main_arg13 (ix2 i l) := by
  obtain ⟨e0, e1⟩ := idx13 t
  show V m c main_arg13 (((cfg0.win 13).blk t).view.emb (ix2 i l)) = V m c main_arg13 (ix2 i l)
  refine congrArg (V m c main_arg13) ?_
  funext a; apply Fin.ext
  match a with
  | ⟨0, _⟩ => show win0_13.index t (0 : Fin 2) * 64 + 1 * i.val = i.val; omega
  | ⟨1, _⟩ => show win0_13.index t (1 : Fin 2) * 128 + 1 * l.val = l.val; omega

theorem mat_iblk13 (c : Dev nD) (t : Fin cfg0.N) : mat (iblk m c 13 t) = mat (m ((c : Thread nD τ).loc main_arg13)) := by
  funext i l
  show iblk m c 13 t (ix2 i l) = (m ((c : Thread nD τ).loc main_arg13)) (ix2 i l)
  rw [iblk13_apply, V_main_arg13]

theorem idx14 : ∀ t : Fin cfg0.N, win0_14.index t (0 : Fin 2) = 0 ∧ win0_14.index t (1 : Fin 2) = 0 :=
  (by decide +kernel : ∀ t : Fin grid0.N, _)

/-- Window 14 holds its whole array at every grid point. -/
theorem iblk14_apply (c : Dev nD) (t : Fin cfg0.N) (i : Fin 1) (l : Fin 128) :
    iblk m c 14 t (ix2 i l) = V m c main_v7 (ix2 i l) := by
  obtain ⟨e0, e1⟩ := idx14 t
  show V m c main_v7 (((cfg0.win 14).blk t).view.emb (ix2 i l)) = V m c main_v7 (ix2 i l)
  refine congrArg (V m c main_v7) ?_
  funext a; apply Fin.ext
  match a with
  | ⟨0, _⟩ => show win0_14.index t (0 : Fin 2) * 1 + 1 * i.val = i.val; omega
  | ⟨1, _⟩ => show win0_14.index t (1 : Fin 2) * 128 + 1 * l.val = l.val; omega

/-- The array window 14 stages is the bias vector viewed as one row. -/
theorem V_main_v7 (c : Dev nD) :
    (V m c main_v7 : S1x128.Idx → EReal) = shapeCast S1x128 (m ((c : Thread nD τ).loc main_arg14)) shapeCasts_S128_S1x128 := by
  dsimp only [Gen.V, Gen.hostOps0]; after_results; rfl

theorem row1_iblk14 (c : Dev nD) (t : Fin cfg0.N) : row1 (iblk m c 14 t) = vec (m ((c : Thread nD τ).loc main_arg14)) := by
  funext l
  show iblk m c 14 t (ix2 (0 : Fin 1) l) = (m ((c : Thread nD τ).loc main_arg14)) (ix1 l)
  rw [iblk14_apply, V_main_v7]
  exact shapeCast_a_1a_apply _ _ (0 : Fin 1) l

/-! ## The incidence and result windows: block `t` is rows `400·t … 400·t + 399` -/

theorem idx1 : ∀ t : Fin cfg0.N, win0_1.index t (0 : Fin 2) = t.val ∧ win0_1.index t (1 : Fin 2) = 0 :=
  (by decide +kernel : ∀ t : Fin grid0.N, _)

theorem idx15 : ∀ t : Fin cfg0.N, win0_15.index t (0 : Fin 2) = t.val ∧ win0_15.index t (1 : Fin 2) = 0 :=
  (by decide +kernel : ∀ t : Fin grid0.N, _)

/-- Row `p` of block `t` is a row of the whole matrix. -/
theorem row_lt (t : Fin cfg0.N) (p : Fin 400) : 400 * t.val + p.val < 10000 := by
  have hN : cfg0.N = 25 := N_0
  have := t.isLt; have := p.isLt; omega

theorem iblk1_apply (c : Dev nD) (t : Fin cfg0.N) (p : Fin 400) (k : Fin 10000) :
    iblk m c 1 t (ix2 p k) = V m c main_arg1 (ix2 (⟨400 * t.val + p.val, row_lt t p⟩ : Fin 10000) k) := by
  obtain ⟨e0, e1⟩ := idx1 t
  show V m c main_arg1 (((cfg0.win 1).blk t).view.emb (ix2 p k)) = _
  refine congrArg (V m c main_arg1) ?_
  funext a; apply Fin.ext
  match a with
  | ⟨0, _⟩ => show win0_1.index t (0 : Fin 2) * 400 + 1 * p.val = 400 * t.val + p.val; omega
  | ⟨1, _⟩ => show win0_1.index t (1 : Fin 2) * 10000 + 1 * k.val = k.val; omega

theorem mat_iblk1 (c : Dev nD) (t : Fin cfg0.N) (p : Fin 400) :
    mat (iblk m c 1 t) p = mat (m ((c : Thread nD τ).loc main_arg1)) (⟨400 * t.val + p.val, row_lt t p⟩ : Fin 10000) := by
  funext k
  show iblk m c 1 t (ix2 p k) = (m ((c : Thread nD τ).loc main_arg1)) (ix2 (⟨400 * t.val + p.val, row_lt t p⟩ : Fin 10000) k)
  rw [iblk1_apply, V_main_arg1]

/-! ## The encoded rows and a block's rows, in terms of the arguments -/

/-- Columns 0–63 of the carried matrix: the encoder on the node's features. -/
theorem encoded_lo (c : Dev nD) (k : Fin 10000) (j : Fin 64) :
    encoded m c (ix2 k (⟨j.val, by have := j.isLt; omega⟩ : Fin 128)) = encRow normK (mat (m ((c : Thread nD τ).loc main_arg0)) k) (mat (m ((c : Thread nD τ).loc main_arg2))) (vec (m ((c : Thread nD τ).loc main_arg3))) (vec (m ((c : Thread nD τ).loc main_arg4))) (vec (m ((c : Thread nD τ).loc main_arg5))) (mat (m ((c : Thread nD τ).loc main_arg6))) (vec (m ((c : Thread nD τ).loc main_arg7))) (mat (m ((c : Thread nD τ).loc main_arg8))) j := by
  unfold encoded
  rw [msgK_lo (iblk m c 0 t0) (iblk m c 2 t0) (iblk m c 3 t0) (iblk m c 4 t0) (iblk m c 5 t0) (iblk m c 6 t0) (iblk m c 7 t0) (iblk m c 8 t0) k j (⟨j.val, by have := j.isLt; omega⟩ : Fin 128) rfl,
    mat_iblk0, mat_iblk2, row1_iblk3, row1_iblk4, row1_iblk5, mat_iblk6, row1_iblk7, mat_iblk8]

/-- Column 64 of the carried matrix is `1`. -/
theorem encoded_one (c : Dev nD) (k : Fin 10000) : encoded m c (ix2 k (⟨64, by decide⟩ : Fin 128)) = 1 := by
  unfold encoded
  exact msgK_one (iblk m c 0 t0) (iblk m c 2 t0) (iblk m c 3 t0) (iblk m c 4 t0) (iblk m c 5 t0) (iblk m c 6 t0) (iblk m c 7 t0) (iblk m c 8 t0) k (⟨64, by decide⟩ : Fin 128) rfl

/-- The network of the argument arrays. -/
def result (c : Dev nD) : Arr2 10000 128 :=
  netOut normK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- Row `p` of the block written at grid point `t` is row `400·t + p` of the network's result. -/
theorem block_row (c : Dev nD) (t : Fin cfg0.N) (p : Fin 400) (q : Fin 128) :
    blockK (iblk m c 1 t) (encoded m c) (iblk m c 9 t) (iblk m c 10 t) (iblk m c 11 t) (iblk m c 12 t) (iblk m c 13 t) (iblk m c 14 t) (ix2 p q) = result m c (ix2 (⟨400 * t.val + p.val, row_lt t p⟩ : Fin 10000) q) := by
  show mat (blockK (iblk m c 1 t) (encoded m c) (iblk m c 9 t) (iblk m c 10 t) (iblk m c 11 t) (iblk m c 12 t) (iblk m c 13 t) (iblk m c 14 t)) p q = _
  rw [blockK_row (iblk m c 1 t) (encoded m c) (iblk m c 9 t) (iblk m c 10 t) (iblk m c 11 t) (iblk m c 12 t) (iblk m c 13 t) (iblk m c 14 t) (fun k => encRow normK (mat (m ((c : Thread nD τ).loc main_arg0)) k) (mat (m ((c : Thread nD τ).loc main_arg2))) (vec (m ((c : Thread nD τ).loc main_arg3))) (vec (m ((c : Thread nD τ).loc main_arg4))) (vec (m ((c : Thread nD τ).loc main_arg5))) (mat (m ((c : Thread nD τ).loc main_arg6))) (vec (m ((c : Thread nD τ).loc main_arg7))) (mat (m ((c : Thread nD τ).loc main_arg8)))) (encoded_lo m c) (encoded_one m c) p,
    mat_iblk1, mat_iblk9, row1_iblk10, row1_iblk11, row1_iblk12, mat_iblk13, row1_iblk14]
  rfl

/-! ## From the blocks to the array -/

/-- What grid point `t` writes back is block `t` of the network's result. -/
theorem flushed_eq (c : Dev nD) (t : Fin cfg0.N) :
    (dats m 0 c).flushed 15 t = ((cfg0.win 15).blk t).view.read (Elt Ideal) (result m c) := by
  rw [Cert.KernelIdeal.Value.flushed15 m c t, block_eq m c t]
  obtain ⟨e0, e1⟩ := idx15 t
  funext y
  obtain ⟨p, q, rfl⟩ : ∃ (p : Fin 400) (q : Fin 128), y = ix2 p q := ⟨y 0, y 1, eq_ix2 y⟩
  show blockK (iblk m c 1 t) (encoded m c) (iblk m c 9 t) (iblk m c 10 t) (iblk m c 11 t) (iblk m c 12 t) (iblk m c 13 t) (iblk m c 14 t) (ix2 p q) = result m c (((cfg0.win 15).blk t).view.emb (ix2 p q))
  have he : ((cfg0.win 15).blk t).view.emb (ix2 p q) = ix2 (⟨400 * t.val + p.val, row_lt t p⟩ : Fin 10000) q := by
    funext a; apply Fin.ext
    match a with
    | ⟨0, _⟩ => show win0_15.index t (0 : Fin 2) * 400 + 1 * p.val = 400 * t.val + p.val; omega
    | ⟨1, _⟩ => show win0_15.index t (1 : Fin 2) * 128 + 1 * q.val = q.val; omega
  rw [he]
  exact block_row m c t p q

/-- An entry of the result array lies in grid point `t`'s block iff each coordinate is in the block's range. -/
theorem mem_blk15 (t : Fin cfg0.N) (i : S10000x128.Idx) :
    i ∈ ((cfg0.win 15).blk t).view.set ↔ ∀ a : Fin 2, win0_15.index t a * S400x128.size a ≤ (i a).val
      ∧ (i a).val < win0_15.index t a * S400x128.size a + S400x128.size a := by
  show i ∈ ((View.whole main_v8).slice (win0_15.rect t)).set ↔ _
  rw [View.set_slice_whole, Rect.mem_set_unit]
  exact Iff.rfl

/-- The 25 blocks of 400 rows tile the 10000 rows, so the result array is the network's result. -/
theorem final (c : Dev nD) : (dats m 0 c).arrAt 15 cfg0.N = result m c :=
  (dats m 0 c).arrAt_eq_of_cover 15 (result m c) (fun t _ => flushed_eq m c t) fun i => by
    have hN : cfg0.N = 25 := N_0
    have h0 : (i 0).val < 10000 := (i 0).isLt
    have h1 : (i 1).val < 128 := (i 1).isLt
    have ht : (i 0).val / 400 < cfg0.N := by omega
    obtain ⟨e0, e1⟩ := idx15 ⟨(i 0).val / 400, ht⟩
    refine ⟨⟨(i 0).val / 400, ht⟩, flush0_15 _, ?_⟩
    rw [mem_blk15]
    intro a
    match a with
    | ⟨0, _⟩ =>
      show win0_15.index ⟨(i 0).val / 400, ht⟩ (0 : Fin 2) * 400 ≤ (i 0).val
        ∧ (i 0).val < win0_15.index ⟨(i 0).val / 400, ht⟩ (0 : Fin 2) * 400 + 400
      rw [e0]; dsimp only; omega
    | ⟨1, _⟩ =>
      show win0_15.index ⟨(i 0).val / 400, ht⟩ (1 : Fin 2) * 128 ≤ (i 1).val
        ∧ (i 1).val < win0_15.index ⟨(i 0).val / 400, ht⟩ (1 : Fin 2) * 128 + 128
      rw [e1]; omega

/-! ## The run, read -/

/-- Every weakly fair execution of the kernel's program ends with the result array at the network of the
    argument arrays, and the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩)
    (Cert.KernelIdeal.Value.run_blocks m ρ)

end Cert.KernelIdeal.KerValue

end
-- ==== Proof.RefOps.lean ====
/- The operations of the reference's @main in program order, as one list: a call is replaced by the callee's
   operations over that call's buffers, each function stated at the buffers' types. A table; nothing is proved here. -/
import proofs.«112816_g47553877901911_cont_8to1c4_274_24_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 123 operations, in order. -/
abbrev ops : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S10000x64 ![0, 1] bcast_S1x64_S10000x64_0_1 : (⟨S1x64, .f32⟩ : BufTy).Contents (Elt F) → (⟨S10000x64, .f32⟩ : BufTy).Contents (Elt F)),
    binary main_v0 main_v2 main_v3 (addf : (⟨S10000x64, .f32⟩ : BufTy).Contents (Elt F) → (⟨S10000x64, .f32⟩ : BufTy).Contents (Elt F) → (⟨S10000x64, .f32⟩ : BufTy).Contents (Elt F)),
    nullary main_call0_cst (constant S_ .f32 0x00000000#32),
    unary main_call0_cst main_call0_v0 ((broadcastInDim S10000x64 ![] bcast_S_S10000x64) : (⟨S_, .f32⟩ : BufTy).Contents (Elt F) → (⟨S10000x64, .f32⟩ : BufTy).Contents (Elt F)),
    binary main_v3 main_call0_v0 main_v4 (maximumf : (⟨S10000x64, .f32⟩ : BufTy).Contents (Elt F) → (⟨S10000x64, .f32⟩ : BufTy).Contents (Elt F) → (⟨S10000x64, .f32⟩ : BufTy).Contents (Elt F)),
    nullary main_cst (constant S_ .f32 0x00000000#32),
    binary main_v4 main_cst main_v5 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_v5 main_v6 (broadcastInDim S10000x1 ![0] bcast_S10000_S10000x1_0 : (⟨S10000, .f32⟩ : BufTy).Contents (Elt F) → (⟨S10000x1, .f32⟩ : BufTy).Contents (Elt F)),
    nullary main_cst_0 (constant S_ .f32 0x42800000#32),
    unary main_cst_0 main_v7 (broadcastInDim S10000x1 ![] bcast_S_S10000x1 : (⟨S_, .f32⟩ : BufTy).Contents (Elt F) → (⟨S10000x1, .f32⟩ : BufTy).Contents (Elt F)),
    binary main_v6 main_v7 main_v8 (Host.divf : (⟨S10000x1, .f32⟩ : BufTy).Contents (Elt F) → (⟨S10000x1, .f32⟩ : BufTy).Contents (Elt F) → (⟨S10000x1, .f32⟩ : BufTy).Contents (Elt F)),
    nullary main_c (constantI S_ 32 0#32),
    nullary main_call1_cst (constant S_ .f32 0x00000000#32),
    binary main_v4 main_call1_cst main_call1_v0 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_call1_v0 main_call1_v1 ((broadcastInDim S10000x1 ![0] bcast_S10000_S10000x1_0) : (⟨S10000, .f32⟩ : BufTy).Contents (Elt F) → (⟨S10000x1, .f32⟩ : BufTy).Contents (Elt F)),
    nullary main_call1_cst_0 (constant S_ .f32 0x42800000#32),
    unary main_call1_cst_0 main_call1_v2 ((broadcastInDim S10000x1 ![] bcast_S_S10000x1) : (⟨S_, .f32⟩ : BufTy).Contents (Elt F) → (⟨S10000x1, .f32⟩ : BufTy).Contents (Elt F)),
    binary main_call1_v1 main_call1_v2 main_call1_v3 (Host.divf : (⟨S10000x1, .f32⟩ : BufTy).Contents (Elt F) → (⟨S10000x1, .f32⟩ : BufTy).Contents (Elt F) → (⟨S10000x1, .f32⟩ : BufTy).Contents (Elt F)),
    unary main_call1_v3 main_call1_v4 ((broadcastInDim S10000x64 ![0, 1] bcast_S10000x1_S10000x64_0_1) : (⟨S10000x1, .f32⟩ : BufTy).Contents (Elt F) → (⟨S10000x64, .f32⟩ : BufTy).Contents (Elt F)),
    binary main_v4 main_call1_v4 main_call1_v5 (subf : (⟨S10000x64, .f32⟩ : BufTy).Contents (Elt F) → (⟨S10000x64, .f32⟩ : BufTy).Contents (Elt F) → (⟨S10000x64, .f32⟩ : BufTy).Contents (Elt F)),
    binary main_call1_v5 main_call1_v5 main_call1_v6 (mulf : (⟨S10000x64, .f32⟩ : BufTy).Contents (Elt F) → (⟨S10000x64, .f32⟩ : BufTy).Contents (Elt F) → (⟨S10000x64, .f32⟩ : BufTy).Contents (Elt F)),
    unary main_c main_call1_v7 ((sitofp .f32) : (⟨S_, .i32⟩ : BufTy).Contents (Elt F) → (⟨S_, .f32⟩ : BufTy).Contents (Elt F)),
    nullary main_call1_cst_1 (constant S_ .f32 0x42800000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_call1_v9 main_call1_v10 ((broadcastInDim S10000x1 ![0] bcast_S10000_S10000x1_0) : (⟨S10000, .f32⟩ : BufTy).Contents (Elt F) → (⟨S10000x1, .f32⟩ : BufTy).Contents (Elt F)),
    unary main_call1_v8 main_call1_v11 ((broadcastInDim S10000x1 ![] bcast_S_S10000x1) : (⟨S_, .f32⟩ : BufTy).Contents (Elt F) → (⟨S10000x1, .f32⟩ : BufTy).Contents (Elt F)),
    binary main_call1_v10 main_call1_v11 main_call1_v12 (Host.divf : (⟨S10000x1, .f32⟩ : BufTy).Contents (Elt F) → (⟨S10000x1, .f32⟩ : BufTy).Contents (Elt F) → (⟨S10000x1, .f32⟩ : BufTy).Contents (Elt F)),
    nullary main_call1_cst_3 (constant S_ .f32 0x00000000#32),
    binary main_call1_v8 main_call1_cst_3 main_call1_v13 ((cmpf .ogt) : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 ((broadcastInDim S10000x1 ![] bcast_S_S10000x1) : (⟨S_, .f32⟩ : BufTy).Contents (Elt F) → (⟨S10000x1, .f32⟩ : BufTy).Contents (Elt F)),
    ternary main_call1_v13 main_call1_v12 main_call1_call0_v1 main_v9 ((fun p a b => select (broadcastInDim S10000x1 ![] bcast_S_S10000x1 p) a b) : (⟨S_, .i1⟩ : BufTy).Contents (Elt F) → (⟨S10000x1, .f32⟩ : BufTy).Contents (Elt F) → (⟨S10000x1, .f32⟩ : BufTy).Contents (Elt F) → (⟨S10000x1, .f32⟩ : BufTy).Contents (Elt F)),
    unary main_v8 main_v10 (broadcastInDim S10000x64 ![0, 1] bcast_S10000x1_S10000x64_0_1 : (⟨S10000x1, .f32⟩ : BufTy).Contents (Elt F) → (⟨S10000x64, .f32⟩ : BufTy).Contents (Elt F)),
    binary main_v4 main_v10 main_v11 (subf : (⟨S10000x64, .f32⟩ : BufTy).Contents (Elt F) → (⟨S10000x64, .f32⟩ : BufTy).Contents (Elt F) → (⟨S10000x64, .f32⟩ : BufTy).Contents (Elt F)),
    nullary main_cst_1 (constant S_ .f32 0x3727C5AC#32),
    unary main_cst_1 main_v12 (broadcastInDim S10000x1 ![] bcast_S_S10000x1 : (⟨S_, .f32⟩ : BufTy).Contents (Elt F) → (⟨S10000x1, .f32⟩ : BufTy).Contents (Elt F)),
    binary main_v9 main_v12 main_v13 (addf : (⟨S10000x1, .f32⟩ : BufTy).Contents (Elt F) → (⟨S10000x1, .f32⟩ : BufTy).Contents (Elt F) → (⟨S10000x1, .f32⟩ : BufTy).Contents (Elt F)),
    unary main_v13 main_v14 (Host.sqrt : (⟨S10000x1, .f32⟩ : BufTy).Contents (Elt F) → (⟨S10000x1, .f32⟩ : BufTy).Contents (Elt F)),
    unary main_v14 main_v15 (broadcastInDim S10000x64 ![0, 1] bcast_S10000x1_S10000x64_0_1 : (⟨S10000x1, .f32⟩ : BufTy).Contents (Elt F) → (⟨S10000x64, .f32⟩ : BufTy).Contents (Elt F)),
    binary main_v11 main_v15 main_v16 (Host.divf : (⟨S10000x64, .f32⟩ : BufTy).Contents (Elt F) → (⟨S10000x64, .f32⟩ : BufTy).Contents (Elt F) → (⟨S10000x64, .f32⟩ : BufTy).Contents (Elt F)),
    unary main_arg4 main_v17 (broadcastInDim S1x64 ![1] bcast_S64_S1x64_1 : (⟨S64, .f32⟩ : BufTy).Contents (Elt F) → (⟨S1x64, .f32⟩ : BufTy).Contents (Elt F)),
    unary main_v17 main_v18 (broadcastInDim S10000x64 ![0, 1] bcast_S1x64_S10000x64_0_1 : (⟨S1x64, .f32⟩ : BufTy).Contents (Elt F) → (⟨S10000x64, .f32⟩ : BufTy).Contents (Elt F)),
    binary main_v16 main_v18 main_v19 (mulf : (⟨S10000x64, .f32⟩ : BufTy).Contents (Elt F) → (⟨S10000x64, .f32⟩ : BufTy).Contents (Elt F) → (⟨S10000x64, .f32⟩ : BufTy).Contents (Elt F)),
    unary main_arg5 main_v20 (broadcastInDim S1x64 ![1] bcast_S64_S1x64_1 : (⟨S64, .f32⟩ : BufTy).Contents (Elt F) → (⟨S1x64, .f32⟩ : BufTy).Contents (Elt F)),
    unary main_v20 main_v21 (broadcastInDim S10000x64 ![0, 1] bcast_S1x64_S10000x64_0_1 : (⟨S1x64, .f32⟩ : BufTy).Contents (Elt F) → (⟨S10000x64, .f32⟩ : BufTy).Contents (Elt F)),
    binary main_v19 main_v21 main_v22 (addf : (⟨S10000x64, .f32⟩ : BufTy).Contents (Elt F) → (⟨S10000x64, .f32⟩ : BufTy).Contents (Elt F) → (⟨S10000x64, .f32⟩ : BufTy).Contents (Elt F)),
    binary main_v22 main_arg6 main_v23 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    unary main_arg7 main_v24 (broadcastInDim S1x64 ![1] bcast_S64_S1x64_1 : (⟨S64, .f32⟩ : BufTy).Contents (Elt F) → (⟨S1x64, .f32⟩ : BufTy).Contents (Elt F)),
    unary main_v24 main_v25 (broadcastInDim S10000x64 ![0, 1] bcast_S1x64_S10000x64_0_1 : (⟨S1x64, .f32⟩ : BufTy).Contents (Elt F) → (⟨S10000x64, .f32⟩ : BufTy).Contents (Elt F)),
    binary main_v23 main_v25 main_v26 (addf : (⟨S10000x64, .f32⟩ : BufTy).Contents (Elt F) → (⟨S10000x64, .f32⟩ : BufTy).Contents (Elt F) → (⟨S10000x64, .f32⟩ : BufTy).Contents (Elt F)),
    nullary main_call2_cst (constant S_ .f32 0x00000000#32),
    unary main_call2_cst main_call2_v0 ((broadcastInDim S10000x64 ![] bcast_S_S10000x64) : (⟨S_, .f32⟩ : BufTy).Contents (Elt F) → (⟨S10000x64, .f32⟩ : BufTy).Contents (Elt F)),
    binary main_v26 main_call2_v0 main_v27 (maximumf : (⟨S10000x64, .f32⟩ : BufTy).Contents (Elt F) → (⟨S10000x64, .f32⟩ : BufTy).Contents (Elt F) → (⟨S10000x64, .f32⟩ : BufTy).Contents (Elt F)),
    binary main_v27 main_arg8 main_v28 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    binary main_arg1 main_v28 main_v29 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    nullary main_cst_2 (constant S_ .f32 0x00000000#32),
    binary main_arg1 main_cst_2 main_v30 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v30 main_v31 (broadcastInDim S10000x1 ![0] bcast_S10000_S10000x1_0 : (⟨S10000, .f32⟩ : BufTy).Contents (Elt F) → (⟨S10000x1, .f32⟩ : BufTy).Contents (Elt F)),
    unary main_v31 main_v32 (broadcastInDim S10000x64 ![0, 1] bcast_S10000x1_S10000x64_0_1 : (⟨S10000x1, .f32⟩ : BufTy).Contents (Elt F) → (⟨S10000x64, .f32⟩ : BufTy).Contents (Elt F)),
    binary main_v29 main_v32 main_v33 (Host.divf : (⟨S10000x64, .f32⟩ : BufTy).Contents (Elt F) → (⟨S10000x64, .f32⟩ : BufTy).Contents (Elt F) → (⟨S10000x64, .f32⟩ : BufTy).Contents (Elt F)),
    binary main_v33 main_arg9 main_v34 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    unary main_arg10 main_v35 (broadcastInDim S1x64 ![1] bcast_S64_S1x64_1 : (⟨S64, .f32⟩ : BufTy).Contents (Elt F) → (⟨S1x64, .f32⟩ : BufTy).Contents (Elt F)),
    unary main_v35 main_v36 (broadcastInDim S10000x64 ![0, 1] bcast_S1x64_S10000x64_0_1 : (⟨S1x64, .f32⟩ : BufTy).Contents (Elt F) → (⟨S10000x64, .f32⟩ : BufTy).Contents (Elt F)),
    binary main_v34 main_v36 main_v37 (addf : (⟨S10000x64, .f32⟩ : BufTy).Contents (Elt F) → (⟨S10000x64, .f32⟩ : BufTy).Contents (Elt F) → (⟨S10000x64, .f32⟩ : BufTy).Contents (Elt F)),
    nullary main_call3_cst (constant S_ .f32 0x00000000#32),
    unary main_call3_cst main_call3_v0 ((broadcastInDim S10000x64 ![] bcast_S_S10000x64) : (⟨S_, .f32⟩ : BufTy).Contents (Elt F) → (⟨S10000x64, .f32⟩ : BufTy).Contents (Elt F)),
    binary main_v37 main_call3_v0 main_v38 (maximumf : (⟨S10000x64, .f32⟩ : BufTy).Contents (Elt F) → (⟨S10000x64, .f32⟩ : BufTy).Contents (Elt F) → (⟨S10000x64, .f32⟩ : BufTy).Contents (Elt F)),
    nullary main_cst_3 (constant S_ .f32 0x00000000#32),
    binary main_v38 main_cst_3 main_v39 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_v39 main_v40 (broadcastInDim S10000x1 ![0] bcast_S10000_S10000x1_0 : (⟨S10000, .f32⟩ : BufTy).Contents (Elt F) → (⟨S10000x1, .f32⟩ : BufTy).Contents (Elt F)),
    nullary main_cst_4 (constant S_ .f32 0x42800000#32),
    unary main_cst_4 main_v41 (broadcastInDim S10000x1 ![] bcast_S_S10000x1 : (⟨S_, .f32⟩ : BufTy).Contents (Elt F) → (⟨S10000x1, .f32⟩ : BufTy).Contents (Elt F)),
    binary main_v40 main_v41 main_v42 (Host.divf : (⟨S10000x1, .f32⟩ : BufTy).Contents (Elt F) → (⟨S10000x1, .f32⟩ : BufTy).Contents (Elt F) → (⟨S10000x1, .f32⟩ : BufTy).Contents (Elt F)),
    nullary main_c_5 (constantI S_ 32 0#32),
    nullary main_call4_cst (constant S_ .f32 0x00000000#32),
    binary main_v38 main_call4_cst main_call4_v0 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_call4_v0 main_call4_v1 ((broadcastInDim S10000x1 ![0] bcast_S10000_S10000x1_0) : (⟨S10000, .f32⟩ : BufTy).Contents (Elt F) → (⟨S10000x1, .f32⟩ : BufTy).Contents (Elt F)),
    nullary main_call4_cst_0 (constant S_ .f32 0x42800000#32),
    unary main_call4_cst_0 main_call4_v2 ((broadcastInDim S10000x1 ![] bcast_S_S10000x1) : (⟨S_, .f32⟩ : BufTy).Contents (Elt F) → (⟨S10000x1, .f32⟩ : BufTy).Contents (Elt F)),
    binary main_call4_v1 main_call4_v2 main_call4_v3 (Host.divf : (⟨S10000x1, .f32⟩ : BufTy).Contents (Elt F) → (⟨S10000x1, .f32⟩ : BufTy).Contents (Elt F) → (⟨S10000x1, .f32⟩ : BufTy).Contents (Elt F)),
    unary main_call4_v3 main_call4_v4 ((broadcastInDim S10000x64 ![0, 1] bcast_S10000x1_S10000x64_0_1) : (⟨S10000x1, .f32⟩ : BufTy).Contents (Elt F) → (⟨S10000x64, .f32⟩ : BufTy).Contents (Elt F)),
    binary main_v38 main_call4_v4 main_call4_v5 (subf : (⟨S10000x64, .f32⟩ : BufTy).Contents (Elt F) → (⟨S10000x64, .f32⟩ : BufTy).Contents (Elt F) → (⟨S10000x64, .f32⟩ : BufTy).Contents (Elt F)),
    binary main_call4_v5 main_call4_v5 main_call4_v6 (mulf : (⟨S10000x64, .f32⟩ : BufTy).Contents (Elt F) → (⟨S10000x64, .f32⟩ : BufTy).Contents (Elt F) → (⟨S10000x64, .f32⟩ : BufTy).Contents (Elt F)),
    unary main_c_5 main_call4_v7 ((sitofp .f32) : (⟨S_, .i32⟩ : BufTy).Contents (Elt F) → (⟨S_, .f32⟩ : BufTy).Contents (Elt F)),
    nullary main_call4_cst_1 (constant S_ .f32 0x42800000#32),
    binary main_call4_cst_1 main_call4_v7 main_call4_v8 (subf : (⟨S_, .f32⟩ : BufTy).Contents (Elt F) → (⟨S_, .f32⟩ : BufTy).Contents (Elt F) → (⟨S_, .f32⟩ : BufTy).Contents (Elt F)),
    nullary main_call4_cst_2 (constant S_ .f32 0x00000000#32),
    binary main_call4_v6 main_call4_cst_2 main_call4_v9 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_call4_v9 main_call4_v10 ((broadcastInDim S10000x1 ![0] bcast_S10000_S10000x1_0) : (⟨S10000, .f32⟩ : BufTy).Contents (Elt F) → (⟨S10000x1, .f32⟩ : BufTy).Contents (Elt F)),
    unary main_call4_v8 main_call4_v11 ((broadcastInDim S10000x1 ![] bcast_S_S10000x1) : (⟨S_, .f32⟩ : BufTy).Contents (Elt F) → (⟨S10000x1, .f32⟩ : BufTy).Contents (Elt F)),
    binary main_call4_v10 main_call4_v11 main_call4_v12 (Host.divf : (⟨S10000x1, .f32⟩ : BufTy).Contents (Elt F) → (⟨S10000x1, .f32⟩ : BufTy).Contents (Elt F) → (⟨S10000x1, .f32⟩ : BufTy).Contents (Elt F)),
    nullary main_call4_cst_3 (constant S_ .f32 0x00000000#32),
    binary main_call4_v8 main_call4_cst_3 main_call4_v13 ((cmpf .ogt) : (⟨S_, .f32⟩ : BufTy).Contents (Elt F) → (⟨S_, .f32⟩ : BufTy).Contents (Elt F) → (⟨S_, .i1⟩ : BufTy).Contents (Elt F)),
    nullary main_call4_cst_4 (constant S_ .f32 0x7FC00000#32),
    unary main_call4_cst_4 main_call4_call0_v0 (id : (⟨S_, .f32⟩ : BufTy).Contents (Elt F) → (⟨S_, .f32⟩ : BufTy).Contents (Elt F)),
    unary main_call4_call0_v0 main_call4_call0_v1 ((broadcastInDim S10000x1 ![] bcast_S_S10000x1) : (⟨S_, .f32⟩ : BufTy).Contents (Elt F) → (⟨S10000x1, .f32⟩ : BufTy).Contents (Elt F)),
    ternary main_call4_v13 main_call4_v12 main_call4_call0_v1 main_v43 ((fun p a b => select (broadcastInDim S10000x1 ![] bcast_S_S10000x1 p) a b) : (⟨S_, .i1⟩ : BufTy).Contents (Elt F) → (⟨S10000x1, .f32⟩ : BufTy).Contents (Elt F) → (⟨S10000x1, .f32⟩ : BufTy).Contents (Elt F) → (⟨S10000x1, .f32⟩ : BufTy).Contents (Elt F)),
    unary main_v42 main_v44 (broadcastInDim S10000x64 ![0, 1] bcast_S10000x1_S10000x64_0_1 : (⟨S10000x1, .f32⟩ : BufTy).Contents (Elt F) → (⟨S10000x64, .f32⟩ : BufTy).Contents (Elt F)),
    binary main_v38 main_v44 main_v45 (subf : (⟨S10000x64, .f32⟩ : BufTy).Contents (Elt F) → (⟨S10000x64, .f32⟩ : BufTy).Contents (Elt F) → (⟨S10000x64, .f32⟩ : BufTy).Contents (Elt F)),
    nullary main_cst_6 (constant S_ .f32 0x3727C5AC#32),
    unary main_cst_6 main_v46 (broadcastInDim S10000x1 ![] bcast_S_S10000x1 : (⟨S_, .f32⟩ : BufTy).Contents (Elt F) → (⟨S10000x1, .f32⟩ : BufTy).Contents (Elt F)),
    binary main_v43 main_v46 main_v47 (addf : (⟨S10000x1, .f32⟩ : BufTy).Contents (Elt F) → (⟨S10000x1, .f32⟩ : BufTy).Contents (Elt F) → (⟨S10000x1, .f32⟩ : BufTy).Contents (Elt F)),
    unary main_v47 main_v48 (Host.sqrt : (⟨S10000x1, .f32⟩ : BufTy).Contents (Elt F) → (⟨S10000x1, .f32⟩ : BufTy).Contents (Elt F)),
    unary main_v48 main_v49 (broadcastInDim S10000x64 ![0, 1] bcast_S10000x1_S10000x64_0_1 : (⟨S10000x1, .f32⟩ : BufTy).Contents (Elt F) → (⟨S10000x64, .f32⟩ : BufTy).Contents (Elt F)),
    binary main_v45 main_v49 main_v50 (Host.divf : (⟨S10000x64, .f32⟩ : BufTy).Contents (Elt F) → (⟨S10000x64, .f32⟩ : BufTy).Contents (Elt F) → (⟨S10000x64, .f32⟩ : BufTy).Contents (Elt F)),
    unary main_arg11 main_v51 (broadcastInDim S1x64 ![1] bcast_S64_S1x64_1 : (⟨S64, .f32⟩ : BufTy).Contents (Elt F) → (⟨S1x64, .f32⟩ : BufTy).Contents (Elt F)),
    unary main_v51 main_v52 (broadcastInDim S10000x64 ![0, 1] bcast_S1x64_S10000x64_0_1 : (⟨S1x64, .f32⟩ : BufTy).Contents (Elt F) → (⟨S10000x64, .f32⟩ : BufTy).Contents (Elt F)),
    binary main_v50 main_v52 main_v53 (mulf : (⟨S10000x64, .f32⟩ : BufTy).Contents (Elt F) → (⟨S10000x64, .f32⟩ : BufTy).Contents (Elt F) → (⟨S10000x64, .f32⟩ : BufTy).Contents (Elt F)),
    unary main_arg12 main_v54 (broadcastInDim S1x64 ![1] bcast_S64_S1x64_1 : (⟨S64, .f32⟩ : BufTy).Contents (Elt F) → (⟨S1x64, .f32⟩ : BufTy).Contents (Elt F)),
    unary main_v54 main_v55 (broadcastInDim S10000x64 ![0, 1] bcast_S1x64_S10000x64_0_1 : (⟨S1x64, .f32⟩ : BufTy).Contents (Elt F) → (⟨S10000x64, .f32⟩ : BufTy).Contents (Elt F)),
    binary main_v53 main_v55 main_v56 (addf : (⟨S10000x64, .f32⟩ : BufTy).Contents (Elt F) → (⟨S10000x64, .f32⟩ : BufTy).Contents (Elt F) → (⟨S10000x64, .f32⟩ : BufTy).Contents (Elt F)),
    binary main_v56 main_arg13 main_v57 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    unary main_arg14 main_v58 (broadcastInDim S1x128 ![1] bcast_S128_S1x128_1 : (⟨S128, .f32⟩ : BufTy).Contents (Elt F) → (⟨S1x128, .f32⟩ : BufTy).Contents (Elt F)),
    unary main_v58 main_v59 (broadcastInDim S10000x128 ![0, 1] bcast_S1x128_S10000x128_0_1 : (⟨S1x128, .f32⟩ : BufTy).Contents (Elt F) → (⟨S10000x128, .f32⟩ : BufTy).Contents (Elt F)),
    binary main_v57 main_v59 main_v60 (addf : (⟨S10000x128, .f32⟩ : BufTy).Contents (Elt F) → (⟨S10000x128, .f32⟩ : BufTy).Contents (Elt F) → (⟨S10000x128, .f32⟩ : BufTy).Contents (Elt F)),
    nullary main_call5_cst (constant S_ .f32 0x00000000#32),
    unary main_call5_cst main_call5_v0 ((broadcastInDim S10000x128 ![] bcast_S_S10000x128) : (⟨S_, .f32⟩ : BufTy).Contents (Elt F) → (⟨S10000x128, .f32⟩ : BufTy).Contents (Elt F)),
    binary main_v60 main_call5_v0 main_v61 (maximumf : (⟨S10000x128, .f32⟩ : BufTy).Contents (Elt F) → (⟨S10000x128, .f32⟩ : BufTy).Contents (Elt F) → (⟨S10000x128, .f32⟩ : BufTy).Contents (Elt F)) ]

end Cert.ReferenceIdeal.RefValue

end
-- ==== Proof.RefMain.lean ====
/-
  The reference's @main is the straight line of its operations, and its run.

  Unfolding the program's two windows and each called function at its call site — a call executes the callee's body on
  the operands, over the buffers the call names — leaves one chain of host operations; re-associating the sequencing
  makes it the list `ops`, operation for operation (a typed reference built from a literal buffer carries the
  buffer's own type, so the transport along that equation is the identity).  The program scopes no buffer and no
  semaphore, every operation touches TensorCore buffers only, and none allocates: so every weakly fair execution
  terminates with every buffer at the fold of the operations' results over the launch contents.
-/
import proofs.«112816_g47553877901911_cont_8to1c4_274_24_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- @main is the straight line `ops`. -/
theorem main_eq (c : Dev nD) : main (F := F) c = seq ops := by
  simp only [main, main_part0, main_part1, fn_relu.body, fn_relu_0.body, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore buffers only. -/
theorem ops_sub : (ops : List (HloOp τ sig (Elt F))).Forall fun op => op.bufs ⊆ tcRefs τ sig := by
  simp only [ops, List.forall_cons, List.Forall, nullary_bufs_sub, unary_bufs_sub, binary_bufs_sub, ternary_bufs_sub, and_self]

set_option maxRecDepth 16384 in
set_option maxHeartbeats 4000000 in
/-- Every weakly fair execution of @main terminates, with every TensorCore buffer at the fold of the operations'
    results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's computation as a short composition of whole-array stages.

  An affine map of every row followed by a clamp at zero (`affS…`, three shapes); the mean of every row of 64 and the
  mean square of the centred row as the library's variance computes it (`meanS`, `varS`); the normalisation of every
  row by division by the square root, with gain and offset (`normS`); and the encoded rows, times the convolution
  weight, averaged with the incidence weights (`aggS`).  The whole network `refOut` is their composition, and the
  fold of the program's operations at the result buffer is `refOut` of the argument buffers, by computation.
-/
import proofs.«112816_g47553877901911_cont_8to1c4_274_24_alg».proof.Proof.RefMain
import proofs.«112816_g47553877901911_cont_8to1c4_274_24_alg».proof.Proof.RowSpec

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.RowSpec (Arr1 Arr2)

/-- The scalar zero the programs write. -/
abbrev zeroC : FVec Ideal S_ .f32 := constant (F := Ideal) S_ .f32 0x00000000#32
/-- The scalar 64 the programs write. -/
abbrev c64C : FVec Ideal S_ .f32 := constant (F := Ideal) S_ .f32 0x42800000#32
/-- The scalar ε the programs write. -/
abbrev epsC : FVec Ideal S_ .f32 := constant (F := Ideal) S_ .f32 0x3727C5AC#32

/-- A vector of 64 laid along each of the 10000 rows. -/
def rows64 (b : Arr1 64) : Arr2 10000 64 :=
  broadcastInDim S10000x64 ![0, 1] bcast_S1x64_S10000x64_0_1 (broadcastInDim S1x64 ![1] bcast_S64_S1x64_1 b)
/-- A vector of 128 laid along each of the 10000 rows. -/
def rows128 (b : Arr1 128) : Arr2 10000 128 :=
  broadcastInDim S10000x128 ![0, 1] bcast_S1x128_S10000x128_0_1 (broadcastInDim S1x128 ![1] bcast_S128_S1x128_1 b)
/-- A column of 10000 row statistics laid along the 64 features. -/
def cols64 (s : Arr2 10000 1) : Arr2 10000 64 :=
  broadcastInDim S10000x64 ![0, 1] bcast_S10000x1_S10000x64_0_1 s
/-- A scalar laid along a column of 10000. -/
def splatCol (v : FVec Ideal S_ .f32) : Arr2 10000 1 := broadcastInDim S10000x1 ![] bcast_S_S10000x1 v
/-- A vector of 10000 as a column. -/
def asCol (v : Arr1 10000) : Arr2 10000 1 := broadcastInDim S10000x1 ![0] bcast_S10000_S10000x1_0 v

/-- Rows of 128 through an affine map to 64 features, clamped at zero. -/
def affS1 (x : Arr2 10000 128) (w : Arr2 128 64) (b : Arr1 64) : Arr2 10000 64 :=
  maximumf (addf (Host.dotGeneral (F := Ideal) dot_S10000x128_S128x64_S10000x64_1_0_0_1_n_n none x w) (rows64 b))
    (broadcastInDim S10000x64 ![] bcast_S_S10000x64 zeroC)
/-- Rows of 64 through an affine map to 64 features, clamped at zero. -/
def affS2 (x : Arr2 10000 64) (w : Arr2 64 64) (b : Arr1 64) : Arr2 10000 64 :=
  maximumf (addf (Host.dotGeneral (F := Ideal) dot_S10000x64_S64x64_S10000x64_1_0_0_1_n_n none x w) (rows64 b))
    (broadcastInDim S10000x64 ![] bcast_S_S10000x64 zeroC)
/-- Rows of 64 through an affine map to 128 features, clamped at zero. -/
def affS4 (x : Arr2 10000 64) (w : Arr2 64 128) (b : Arr1 128) : Arr2 10000 128 :=
  maximumf (addf (Host.dotGeneral (F := Ideal) dot_S10000x64_S64x128_S10000x128_1_0_0_1_n_n none x w) (rows128 b))
    (broadcastInDim S10000x128 ![] bcast_S_S10000x128 zeroC)

/-- The sum of every row of 64, as a column. -/
def rowSumS (h : Arr2 10000 64) : Arr2 10000 1 :=
  asCol (Host.reduceAdd (F := Ideal) h zeroC reducesTo_S10000x64_S10000_d1 h_S_)

/-- The mean of every row of 64, as a column. -/
def meanS (h : Arr2 10000 64) : Arr2 10000 1 := Host.divf (F := Ideal) (rowSumS h) (splatCol c64C)

/-- The square of the centred rows. -/
def sqCentredS (h : Arr2 10000 64) : Arr2 10000 64 :=
  mulf (subf h (cols64 (meanS h))) (subf h (cols64 (meanS h)))

/-- The divisor the variance uses: 64 minus the correction 0. -/
def varDenS : FVec Ideal S_ .f32 := subf c64C (sitofp .f32 (constantI S_ 32 0#32))

/-- The variance of every row of 64, as a column, as the library function computes it: the mean square of the
    centred row over the divisor, where the divisor is positive, and a fill value elsewhere. -/
def varS (h : Arr2 10000 64) : Arr2 10000 1 :=
  select (broadcastInDim S10000x1 ![] bcast_S_S10000x1 (cmpf .ogt varDenS zeroC))
    (Host.divf (F := Ideal) (rowSumS (sqCentredS h)) (splatCol varDenS))
    (splatCol (id (constant (F := Ideal) S_ .f32 0x7FC00000#32)))

/-- Every row normalised: centred, divided by the square root of variance plus ε, scaled and shifted. -/
def normS (h : Arr2 10000 64) (g b : Arr1 64) : Arr2 10000 64 :=
  addf (mulf (Host.divf (F := Ideal) (subf h (cols64 (meanS h)))
      (cols64 (Host.sqrt (F := Ideal) (addf (varS h) (splatCol epsC))))) (rows64 g)) (rows64 b)

/-- The encoded rows times the convolution weight, averaged at every node with the incidence weights. -/
def aggS (inc : Arr2 10000 10000) (h : Arr2 10000 64) (cw : Arr2 64 64) : Arr2 10000 64 :=
  Host.divf (F := Ideal)
    (Host.dotGeneral (F := Ideal) dot_S10000x10000_S10000x64_S10000x64_1_0_0_1_n_n none inc
      (Host.dotGeneral (F := Ideal) dot_S10000x64_S64x64_S10000x64_1_0_0_1_n_n none h cw))
    (cols64 (asCol (Host.reduceAdd (F := Ideal) inc zeroC reducesTo_S10000x10000_S10000_d1 h_S_)))

/-- The whole network on whole arrays. -/
def refOut (x : Arr2 10000 128) (inc : Arr2 10000 10000) (ew0 : Arr2 128 64) (eb0 eg eb : Arr1 64)
    (ew1 : Arr2 64 64) (eb1 : Arr1 64) (cw : Arr2 64 64) (dw0 : Arr2 64 64) (db0 dg db : Arr1 64)
    (dw1 : Arr2 64 128) (db1 : Arr1 128) : Arr2 10000 128 :=
  affS4 (normS (affS2 (aggS inc (affS2 (normS (affS1 x ew0 eb0) eg eb) ew1 eb1) cw) dw0 db0) dg db) dw1 db1

set_option maxRecDepth 16384 in
set_option maxHeartbeats 40000000 in
/-- The fold of the operations at the result buffer is the composition of the stages at the argument buffers. -/
theorem after_out (V : Valuation τ sig (Elt Ideal)) :
    after (ops (F := Ideal)) V (main_v61 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig)) := by
  after_results_simp <;> rfl

end Cert.ReferenceIdeal.RefValue

end
-- ==== Proof.RefRead.lean ====
/-
  The stages read at an index, row by row.

  A vector laid along the rows reads its entry at the column; a column of row statistics laid along the features reads
  the row's statistic; a broadcast scalar reads the scalar.  A product of two matrices read at (i, j) is the sum over
  the contracted coordinate of the products of the entries, and a sum along a row from the initial value zero is the sum of the row's
  entries.  With these, each stage at row `i` is the row-wise function of the specification applied to row `i` of its
  operand: the affine map and clamp, the mean, the variance (whose divisor 64 − 0 is 64, and positive, so the
  library's guard selects the quotient), the normalisation by the square root, and the incidence-weighted average.
  The composition of the stages is therefore the specification's network, index by index.
-/
import proofs.«112816_g47553877901911_cont_8to1c4_274_24_alg».proof.Proof.RefStages
import Idealize.ShloMosaic.Lib.IdealHost
import Idealize.ShloMosaic.Lib.StackMember
import Idealize.ShloMosaic.Lib.Pipeline.Value

noncomputable section

namespace Cert.ReferenceIdeal.RefValue

open Cert.ReferenceIdeal Cert.ReferenceIdeal.Gen Idealize.ShloMosaic Idealize.ShloMosaic.ValueIdx Idealize.ShloMosaic.StackMember
open Cert.RowSpec

/-! ## The layout stages at an index -/

/-- A vector of 64 laid along the rows reads its entry at the column. -/
theorem rows64_apply (b : Arr1 64) (i : Fin 10000) (j : Fin 64) : rows64 b (ix2 i j) = b (ix1 j) := by
  unfold rows64
  exact (broadcastInDim_apply _ bcast_S1x64_S10000x64_0_1 _ (ix2 i j) (ix2 (0 : Fin 1) j)
      (fun a => by match a with | ⟨0, _⟩ => rfl | ⟨1, _⟩ => rfl)).trans
    (broadcastInDim_apply _ bcast_S64_S1x64_1 b (ix2 (0 : Fin 1) j) (ix1 j)
      (fun a => by match a with | ⟨0, _⟩ => rfl))

/-- A vector of 128 laid along the rows reads its entry at the column. -/
theorem rows128_apply (b : Arr1 128) (i : Fin 10000) (j : Fin 128) : rows128 b (ix2 i j) = b (ix1 j) := by
  unfold rows128
  exact (broadcastInDim_apply _ bcast_S1x128_S10000x128_0_1 _ (ix2 i j) (ix2 (0 : Fin 1) j)
      (fun a => by match a with | ⟨0, _⟩ => rfl | ⟨1, _⟩ => rfl)).trans
    (broadcastInDim_apply _ bcast_S128_S1x128_1 b (ix2 (0 : Fin 1) j) (ix1 j)
      (fun a => by match a with | ⟨0, _⟩ => rfl))

/-- A column of row statistics laid along the features reads the row's statistic. -/
theorem cols64_apply (s : Arr2 10000 1) (i : Fin 10000) (j : Fin 64) : cols64 s (ix2 i j) = s (ix2 i (0 : Fin 1)) := by
  unfold cols64
  exact broadcastInDim_apply _ bcast_S10000x1_S10000x64_0_1 s (ix2 i j) (ix2 i (0 : Fin 1))
    (fun a => by match a with | ⟨0, _⟩ => rfl | ⟨1, _⟩ => rfl)

/-- A scalar laid along a column reads the scalar. -/
theorem splatCol_apply (v : FVec Ideal S_ .f32) (idx : S10000x1.Idx) : splatCol v idx = v ix0 :=
  broadcastInDim_scalar_apply bcast_S_S10000x1 v idx

/-- A vector as a column reads its entry at the row. -/
theorem asCol_apply (v : Arr1 10000) (i : Fin 10000) : asCol v (ix2 i (0 : Fin 1)) = v (ix1 i) := by
  unfold asCol
  exact broadcastInDim_apply _ bcast_S10000_S10000x1_0 v (ix2 i (0 : Fin 1)) (ix1 i)
    (fun a => by match a with | ⟨0, _⟩ => rfl)

/-- The scalar zero reads `0`. -/
theorem zeroC_apply (idx : S_.Idx) : zeroC idx = 0 := Ideal.ofBits_zero_f32

/-- The zero splat over rows of 64 reads `0`. -/
theorem zero64_apply (idx : S10000x64.Idx) : broadcastInDim S10000x64 ![] bcast_S_S10000x64 zeroC idx = 0 :=
  (broadcastInDim_scalar_apply bcast_S_S10000x64 zeroC idx).trans (zeroC_apply _)

/-- The zero splat over rows of 128 reads `0`. -/
theorem zero128_apply (idx : S10000x128.Idx) : broadcastInDim S10000x128 ![] bcast_S_S10000x128 zeroC idx = 0 :=
  (broadcastInDim_scalar_apply bcast_S_S10000x128 zeroC idx).trans (zeroC_apply _)

/-! ## A matrix product and a row sum at an index -/

/-- A product of an m×k by a k×n matrix, contracted along the one shared axis, read at (a, b). -/
theorem dot_plain_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral (F := Ideal) D none A B (ix2 a b) = ∑ c : Fin k, A (ix2 a c) * B (ix2 c b) := by
  subst hD
  exact dotGeneral_plain_apply none A B a b

/-- The sum of a row of 64 from the initial value zero. -/
theorem rowSum64_apply (h : Arr2 10000 64) (i : Fin 10000) :
    Host.reduceAdd (F := Ideal) h zeroC reducesTo_S10000x64_S10000_d1 h_S_ (ix1 i) = ∑ k : Fin 64, h (ix2 i k) := by
  have hR : S10000x64.Reduces [1] S10000 := by decide
  rw [hostReduceAdd_apply, Ideal.hostReduceAdd_single reducesTo_S10000x64_S10000_d1 hR, zeroC_apply, zero_add]
  refine Finset.sum_congr rfl fun k _ => congrArg h ?_
  funext ax
  match ax with
  | ⟨0, _⟩ => exact Fin.ext rfl
  | ⟨1, _⟩ => exact Fin.ext rfl

/-- The sum of a row of 10000 from the initial value zero. -/
theorem rowSum10000_apply (h : Arr2 10000 10000) (i : Fin 10000) :
    Host.reduceAdd (F := Ideal) h zeroC reducesTo_S10000x10000_S10000_d1 h_S_ (ix1 i) = ∑ k : Fin 10000, h (ix2 i k) := by
  have hR : S10000x10000.Reduces [1] S10000 := by decide
  rw [hostReduceAdd_apply, Ideal.hostReduceAdd_single reducesTo_S10000x10000_S10000_d1 hR, zeroC_apply, zero_add]
  refine Finset.sum_congr rfl fun k _ => congrArg h ?_
  funext ax
  match ax with
  | ⟨0, _⟩ => exact Fin.ext rfl
  | ⟨1, _⟩ => exact Fin.ext rfl

/-- The column of row sums reads the row's sum. -/
theorem rowSumS_apply (h : Arr2 10000 64) (i : Fin 10000) : rowSumS h (ix2 i (0 : Fin 1)) = ∑ k : Fin 64, h (ix2 i k) := by
  unfold rowSumS
  exact (asCol_apply _ i).trans (rowSum64_apply h i)

/-! ## The affine stages, row by row -/

theorem affS1_row (x : Arr2 10000 128) (w : Arr2 128 64) (b : Arr1 64) (i : Fin 10000) :
    mat (affS1 x w b) i = affRelu (mat x i) (mat w) (vec b) := by
  funext j
  show affS1 x w b (ix2 i j) = max ((∑ k : Fin 128, x (ix2 i k) * w (ix2 k j)) + b (ix1 j)) 0
  unfold affS1
  rw [maximumf_apply, addf_apply, dot_plain_apply dot_S10000x128_S128x64_S10000x64_1_0_0_1_n_n rfl, rows64_apply, zero64_apply]

theorem affS2_row (x : Arr2 10000 64) (w : Arr2 64 64) (b : Arr1 64) (i : Fin 10000) :
    mat (affS2 x w b) i = affRelu (mat x i) (mat w) (vec b) := by
  funext j
  show affS2 x w b (ix2 i j) = max ((∑ k : Fin 64, x (ix2 i k) * w (ix2 k j)) + b (ix1 j)) 0
  unfold affS2
  rw [maximumf_apply, addf_apply, dot_plain_apply dot_S10000x64_S64x64_S10000x64_1_0_0_1_n_n rfl, rows64_apply, zero64_apply]

theorem affS4_row (x : Arr2 10000 64) (w : Arr2 64 128) (b : Arr1 128) (i : Fin 10000) :
    mat (affS4 x w b) i = affRelu (mat x i) (mat w) (vec b) := by
  funext j
  show affS4 x w b (ix2 i j) = max ((∑ k : Fin 64, x (ix2 i k) * w (ix2 k j)) + b (ix1 j)) 0
  unfold affS4
  rw [maximumf_apply, addf_apply, dot_plain_apply dot_S10000x64_S64x128_S10000x128_1_0_0_1_n_n rfl, rows128_apply, zero128_apply]

/-! ## The row statistics -/

/-- The column of means reads the mean of the row. -/
theorem meanS_apply (h : Arr2 10000 64) (i : Fin 10000) : meanS h (ix2 i (0 : Fin 1)) = mean (mat h i) := by
  show Ideal.div (rowSumS h (ix2 i (0 : Fin 1))) (splatCol c64C (ix2 i (0 : Fin 1))) = Ideal.div (∑ j : Fin 64, h (ix2 i j)) c64
  rw [rowSumS_apply, splatCol_apply]
  rfl

/-- The variance's divisor, 64 minus the integer 0 read as a real, is 64. -/
theorem varDenS_apply : varDenS ix0 = c64 := by
  show c64 - (((0#32 : BitVec 32).toInt : ℝ) : EReal) = c64
  simp

/-- The guard "the divisor is positive" holds. -/
theorem varGuard_apply (idx : S10000x1.Idx) :
    broadcastInDim S10000x1 ![] bcast_S_S10000x1 (cmpf .ogt varDenS zeroC) idx = 1#1 := by
  rw [broadcastInDim_scalar_apply]
  show Ideal.cmp .ogt (varDenS ix0) (zeroC ix0) = 1#1
  rw [varDenS_apply, zeroC_apply]
  simp [Ideal.cmp, c64_pos]

/-- The squared centred rows read the square of the specification's centred row. -/
theorem sqCentredS_apply (h : Arr2 10000 64) (i : Fin 10000) (k : Fin 64) :
    sqCentredS h (ix2 i k) = centred (mat h i) k * centred (mat h i) k := by
  show (h (ix2 i k) - cols64 (meanS h) (ix2 i k)) * (h (ix2 i k) - cols64 (meanS h) (ix2 i k)) = _
  rw [cols64_apply, meanS_apply]
  rfl

/-- The column of variances reads the variance of the row. -/
theorem varS_apply (h : Arr2 10000 64) (i : Fin 10000) : varS h (ix2 i (0 : Fin 1)) = var (mat h i) := by
  unfold varS
  rw [select_apply, varGuard_apply, select_one, hostDivf_apply, rowSumS_apply, splatCol_apply, varDenS_apply]
  show Ideal.div (∑ k : Fin 64, sqCentredS h (ix2 i k)) c64 = Ideal.div (∑ j : Fin 64, centred (mat h i) j * centred (mat h i) j) c64
  exact congrArg (Ideal.div · c64) (Finset.sum_congr rfl fun k _ => sqCentredS_apply h i k)

/-- The column of square roots of variance plus ε reads the row's. -/
theorem sdS_apply (h : Arr2 10000 64) (i : Fin 10000) :
    Host.sqrt (F := Ideal) (addf (varS h) (splatCol epsC)) (ix2 i (0 : Fin 1)) = Ideal.sqrt (var (mat h i) + eps) := by
  show Ideal.sqrt (varS h (ix2 i (0 : Fin 1)) + splatCol epsC (ix2 i (0 : Fin 1))) = _
  rw [varS_apply, splatCol_apply]
  rfl

/-- The normalisation, row by row. -/
theorem normS_row (h : Arr2 10000 64) (g b : Arr1 64) (i : Fin 10000) :
    mat (normS h g b) i = normR (mat h i) (vec g) (vec b) := by
  funext j
  show normS h g b (ix2 i j)
    = Ideal.div (h (ix2 i j) - mean (mat h i)) (Ideal.sqrt (var (mat h i) + eps)) * g (ix1 j) + b (ix1 j)
  unfold normS
  rw [addf_apply, mulf_apply, hostDivf_apply, subf_apply, cols64_apply, cols64_apply, meanS_apply, sdS_apply,
    rows64_apply, rows64_apply]

/-! ## The aggregation, row by row -/

theorem aggS_row (inc : Arr2 10000 10000) (h : Arr2 10000 64) (cw : Arr2 64 64) (i : Fin 10000) :
    mat (aggS inc h cw) i = aggRow (mat inc i) (fun k => rowMat (mat h k) (mat cw)) := by
  funext j
  show aggS inc h cw (ix2 i j)
    = Ideal.div (∑ k : Fin 10000, inc (ix2 i k) * ∑ q : Fin 64, h (ix2 k q) * cw (ix2 q j)) (∑ k : Fin 10000, inc (ix2 i k))
  unfold aggS
  rw [hostDivf_apply, dot_plain_apply dot_S10000x10000_S10000x64_S10000x64_1_0_0_1_n_n rfl, cols64_apply, asCol_apply, rowSum10000_apply]
  exact congrArg (Ideal.div · _) (Finset.sum_congr rfl fun k _ => by rw [dot_plain_apply dot_S10000x64_S64x64_S10000x64_1_0_0_1_n_n rfl])

/-! ## The network -/

/-- The composition of the stages is the specification's network with the normalisation by the square root. -/
theorem refOut_eq_netOut (x : Arr2 10000 128) (inc : Arr2 10000 10000) (ew0 : Arr2 128 64) (eb0 eg eb : Arr1 64)
    (ew1 : Arr2 64 64) (eb1 : Arr1 64) (cw : Arr2 64 64) (dw0 : Arr2 64 64) (db0 dg db : Arr1 64)
    (dw1 : Arr2 64 128) (db1 : Arr1 128) :
    refOut x inc ew0 eb0 eg eb ew1 eb1 cw dw0 db0 dg db dw1 db1
      = netOut normR x inc ew0 eb0 eg eb ew1 eb1 cw dw0 db0 dg db dw1 db1 := by
  funext idx
  obtain ⟨i, j, rfl⟩ : ∃ (i : Fin 10000) (j : Fin 128), idx = ix2 i j := ⟨idx 0, idx 1, eq_ix2 idx⟩
  show mat (refOut x inc ew0 eb0 eg eb ew1 eb1 cw dw0 db0 dg db dw1 db1) i j
    = decRow normR (aggRow (mat inc i) fun k => encRow normR (mat x k) (mat ew0) (vec eb0) (vec eg) (vec eb) (mat ew1) (vec eb1) (mat cw))
        (mat dw0) (vec db0) (vec dg) (vec db) (mat dw1) (vec db1) j
  unfold refOut
  rw [affS4_row, normS_row, affS2_row, aggS_row]
  simp only [affS2_row, normS_row, affS1_row]
  rfl

end Cert.ReferenceIdeal.RefValue

end
-- ==== Proof.RefValue.lean ====
/-
  The reference's run, read as the specification's network.

  Every weakly fair execution of the reference terminates with every buffer at the fold of its operations' results over
  the launch contents.  No operation writes an argument buffer, so the arguments end as they began; and the fold at
  the result buffer is the composition of the whole-array stages, which is, index by index, the row-wise network of
  the specification with the normalisation that divides by the square root.
-/
import proofs.«112816_g47553877901911_cont_8to1c4_274_24_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## No operation writes an argument -/

section Kept
variable (V : Valuation τ sig (Elt Ideal))

set_option maxRecDepth 16384 in
theorem after_arg0 : after (ops (F := Ideal)) V (main_arg0 : DevRef τ sig) = V (main_arg0 : DevRef τ sig) := by
  after_results_simp <;> rfl
set_option maxRecDepth 16384 in
theorem after_arg1 : after (ops (F := Ideal)) V (main_arg1 : DevRef τ sig) = V (main_arg1 : DevRef τ sig) := by
  after_results_simp <;> rfl
set_option maxRecDepth 16384 in
theorem after_arg2 : after (ops (F := Ideal)) V (main_arg2 : DevRef τ sig) = V (main_arg2 : DevRef τ sig) := by
  after_results_simp <;> rfl
set_option maxRecDepth 16384 in
theorem after_arg3 : after (ops (F := Ideal)) V (main_arg3 : DevRef τ sig) = V (main_arg3 : DevRef τ sig) := by
  after_results_simp <;> rfl
set_option maxRecDepth 16384 in
theorem after_arg4 : after (ops (F := Ideal)) V (main_arg4 : DevRef τ sig) = V (main_arg4 : DevRef τ sig) := by
  after_results_simp <;> rfl
set_option maxRecDepth 16384 in
theorem after_arg5 : after (ops (F := Ideal)) V (main_arg5 : DevRef τ sig) = V (main_arg5 : DevRef τ sig) := by
  after_results_simp <;> rfl
set_option maxRecDepth 16384 in
theorem after_arg6 : after (ops (F := Ideal)) V (main_arg6 : DevRef τ sig) = V (main_arg6 : DevRef τ sig) := by
  after_results_simp <;> rfl
set_option maxRecDepth 16384 in
theorem after_arg7 : after (ops (F := Ideal)) V (main_arg7 : DevRef τ sig) = V (main_arg7 : DevRef τ sig) := by
  after_results_simp <;> rfl
set_option maxRecDepth 16384 in
theorem after_arg8 : after (ops (F := Ideal)) V (main_arg8 : DevRef τ sig) = V (main_arg8 : DevRef τ sig) := by
  after_results_simp <;> rfl
set_option maxRecDepth 16384 in
theorem after_arg9 : after (ops (F := Ideal)) V (main_arg9 : DevRef τ sig) = V (main_arg9 : DevRef τ sig) := by
  after_results_simp <;> rfl
set_option maxRecDepth 16384 in
theorem after_arg10 : after (ops (F := Ideal)) V (main_arg10 : DevRef τ sig) = V (main_arg10 : DevRef τ sig) := by
  after_results_simp <;> rfl
set_option maxRecDepth 16384 in
theorem after_arg11 : after (ops (F := Ideal)) V (main_arg11 : DevRef τ sig) = V (main_arg11 : DevRef τ sig) := by
  after_results_simp <;> rfl
set_option maxRecDepth 16384 in
theorem after_arg12 : after (ops (F := Ideal)) V (main_arg12 : DevRef τ sig) = V (main_arg12 : DevRef τ sig) := by
  after_results_simp <;> rfl
set_option maxRecDepth 16384 in
theorem after_arg13 : after (ops (F := Ideal)) V (main_arg13 : DevRef τ sig) = V (main_arg13 : DevRef τ sig) := by
  after_results_simp <;> rfl
set_option maxRecDepth 16384 in
theorem after_arg14 : after (ops (F := Ideal)) V (main_arg14 : DevRef τ sig) = V (main_arg14 : DevRef τ sig) := by
  after_results_simp <;> rfl

end Kept

/-! ## The run -/

/-- On every device, from any memory with zero counters: every weakly fair execution of the reference terminates with
    the result buffer at the specification's network of the argument buffers (normalisation by division by the square
    root), and the argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61)
          = Cert.RowSpec.netOut Cert.RowSpec.normR
              (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
              (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨((h c main_v61).trans (after_out (launchContents m c))).trans (refOut_eq_netOut ..),
      (h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _), (h c main_arg7).trans (after_arg7 _), (h c main_arg8).trans (after_arg8 _),
      (h c main_arg9).trans (after_arg9 _), (h c main_arg10).trans (after_arg10 _), (h c main_arg11).trans (after_arg11 _),
      (h c main_arg12).trans (after_arg12 _), (h c main_arg13).trans (after_arg13 _), (h c main_arg14).trans (after_arg14 _)⟩)
    (run_main m ρ)

end Cert.ReferenceIdeal.RefValue

end
-- ==== Proof.lean ====
/-
  The certificate of the fused graph-network kernel against its reference, on the extended reals.

  Both programs compute, for each of 10000 nodes, a decoder applied to the incidence-weighted average of the
  encoder's rows: entry `(i, q)` of the result is `decRow (aggRow (incidence row i) (encoded rows)) q`
  (`Cert.RowSpec.netOut`).  The kernel computes the encoded rows once, keeps them beside a column of ones so
  that one matrix product yields both the weighted sums and the incidence row sums, and writes the result 400
  rows at a time; the reference takes the same sums over whole arrays.  Sums and products of extended reals do
  not depend on order or grouping, and `x · 1 = x`, so the two differ in one place only: the kernel normalises
  a row by multiplying with the reciprocal square root of `variance + ε`, the reference by dividing by the
  square root.  A variance is nonnegative, so `variance + ε` lies in `(0, +∞]`, where the two agree at every
  extended real (`Cert.RowSpec.normK_eq_normR`).  The inputs' finiteness is not used.
-/
import proofs.«112816_g47553877901911_cont_8to1c4_274_24_alg».proof.Defs
import proofs.«112816_g47553877901911_cont_8to1c4_274_24_alg».proof.Proof.Gen.Kernel
import proofs.«112816_g47553877901911_cont_8to1c4_274_24_alg».proof.Proof.Gen.Kernel.Skeleton
import proofs.«112816_g47553877901911_cont_8to1c4_274_24_alg».proof.Proof.Gen.Kernel.Launch
import proofs.«112816_g47553877901911_cont_8to1c4_274_24_alg».proof.Proof.Gen.Kernel.Points
import proofs.«112816_g47553877901911_cont_8to1c4_274_24_alg».proof.Proof.Gen.Kernel.Frame
import proofs.«112816_g47553877901911_cont_8to1c4_274_24_alg».proof.Proof.Gen.KernelIdeal
import proofs.«112816_g47553877901911_cont_8to1c4_274_24_alg».proof.Proof.Gen.KernelIdeal.Skeleton
import proofs.«112816_g47553877901911_cont_8to1c4_274_24_alg».proof.Proof.Gen.KernelIdeal.Launch
import proofs.«112816_g47553877901911_cont_8to1c4_274_24_alg».proof.Proof.Gen.KernelIdeal.Points
import proofs.«112816_g47553877901911_cont_8to1c4_274_24_alg».proof.Proof.Gen.KernelIdeal.Frame
import proofs.«112816_g47553877901911_cont_8to1c4_274_24_alg».proof.Proof.Gen.KernelIdeal.Value
import proofs.«112816_g47553877901911_cont_8to1c4_274_24_alg».proof.Proof.Gen.ReferenceIdeal
import proofs.«112816_g47553877901911_cont_8to1c4_274_24_alg».proof.Proof.Gen.Pre_finite_inputs
import proofs.«112816_g47553877901911_cont_8to1c4_274_24_alg».proof.Proof.RowSpec
import proofs.«112816_g47553877901911_cont_8to1c4_274_24_alg».proof.Proof.KerValue
import proofs.«112816_g47553877901911_cont_8to1c4_274_24_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were. -/
theorem frame_k [Cert.Kernel.Facts] [Cert.Pre_finite_inputs.Facts] : Cert.frame_Kernel :=
  fun m ρ _ => Cert.Kernel.Gen.frame m ρ

/-- So does the kernel read on the extended reals. -/
theorem frame_ki [Cert.KernelIdeal.Facts] [Cert.Pre_finite_inputs.Facts] : Cert.frame_KernelIdeal :=
  fun m ρ _ => Cert.KernelIdeal.Gen.frame m ρ

/-- So does the reference: its run, with what it says of the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.RefValue.run m ρ)

/-- From memories that agree on the arguments the kernel's result array ends at the network with the
    reciprocal-square-root normalisation and the reference's at the network with the square-root one, of the
    same arguments; the two normalisations are one function. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9, a10, a11, a12, a13, a14⟩ := hagree c
  rw [a0, a1, a2, a3, a4, a5, a6, a7, a8, a9, a10, a11, a12, a13, a14, ← Cert.RowSpec.normK_eq_normR]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
